-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32x4 : Shape := ⟨3, ![40000, 32, 4]⟩
abbrev S40000 : Shape := ⟨1, ![40000]⟩
abbrev S64x4 : Shape := ⟨2, ![64, 4]⟩
abbrev S64 : Shape := ⟨1, ![64]⟩
abbrev S_ : Shape := ⟨0, ![]⟩

class Facts : Prop where
  bcast_S_S40000x32x4 : S_.BroadcastsInDim S40000x32x4 (![] : Fin 0 → Fin S40000x32x4.rank)
  reducesTo_S40000x32x4_S_d0_1_2 : S40000x32x4.ReducesTo [0, 1, 2] S_
  h_S_ : 0 < S_.numel
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S40000x32x4 .f32) (main_arg1 : IVec S40000 32) (main_arg2 : FVec F S64x4 .f32) (main_arg3 : FVec F S64 .f32) (main_arg4 : FVec F S64 .f32) (main_arg5 : FVec F S64 .f32) : IVec S_ 1 :=
  let main_v0 : FVec F S40000x32x4 .f32 := Host.absf main_arg0
  let main_cst : FVec F S_ .f32 := constant S_ .f32 0x7F800000#32
  let main_v1 : FVec F S40000x32x4 .f32 := broadcastInDim S40000x32x4 ![] bcast_S_S40000x32x4 main_cst
  let main_v2 : IVec S40000x32x4 1 := cmpf .olt main_v0 main_v1
  let main_c : IVec S_ 1 := constantI S_ 1 1#1
  let main_v3 : IVec S_ 1 := (fun x v => Host.reduce IntOp.andi x v reducesTo_S40000x32x4_S_d0_1_2 h_S_) main_v2 main_c
  let main_v4 : FVec F S64x4 .f32 := Host.absf main_arg2
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S40000x32x4 : Shape := ⟨3, ![40000, 32, 4]⟩
abbrev S40000 : Shape := ⟨1, ![40000]⟩
abbrev S64x4 : Shape := ⟨2, ![64, 4]⟩
abbrev S64 : Shape := ⟨1, ![64]⟩
abbrev S1280000x4 : Shape := ⟨2, ![1280000, 4]⟩
abbrev S32 : Shape := ⟨1, ![32]⟩
abbrev S1x32 : Shape := ⟨2, ![1, 32]⟩
abbrev S40000x1 : Shape := ⟨2, ![40000, 1]⟩
abbrev S40000x32 : Shape := ⟨2, ![40000, 32]⟩
abbrev S1280000x1 : Shape := ⟨2, ![1280000, 1]⟩
abbrev S4x64 : Shape := ⟨2, ![4, 64]⟩
abbrev S1x64 : Shape := ⟨2, ![1, 64]⟩
abbrev S_ : Shape := ⟨0, ![]⟩
abbrev S1x1 : Shape := ⟨2, ![1, 1]⟩
abbrev S12800x4 : Shape := ⟨2, ![12800, 4]⟩
abbrev S12800x1 : Shape := ⟨2, ![12800, 1]⟩
abbrev S12800x64 : Shape := ⟨2, ![12800, 64]⟩
abbrev S1 : Shape := ⟨1, ![1]⟩
abbrev S40000x64 : Shape := ⟨2, ![40000, 64]⟩
abbrev S400x1 : Shape := ⟨2, ![400, 1]⟩
abbrev S400x64 : Shape := ⟨2, ![400, 64]⟩
abbrev S400x32x64 : Shape := ⟨3, ![400, 32, 64]⟩

abbrev nBuf : Space → Nat
  | .hbm => 47
  | .vmem => 21
  | .smem => 0
  | _ => 0

abbrev bufTy : (tb : Table) → Fin (tcTables nBuf tb) → BufTy
  | .hbm, ⟨0, _⟩ => ⟨S40000x32x4, .f32⟩
  | .hbm, ⟨1, _⟩ => ⟨S40000, .i32⟩
  | .hbm, ⟨2, _⟩ => ⟨S64x4, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1280000x4, .f32⟩
  | .hbm, ⟨7, _⟩ => ⟨S32, .i32⟩
  | .hbm, ⟨8, _⟩ => ⟨S1x32, .i32⟩
  | .hbm, ⟨9, _⟩ => ⟨S40000x1, .i32⟩
  | .hbm, ⟨10, _⟩ => ⟨S40000x32, .i32⟩
  | .hbm, ⟨11, _⟩ => ⟨S40000x32, .i32⟩
  | .hbm, ⟨12, _⟩ => ⟨S40000x32, .i1⟩
  | .hbm, ⟨13, _⟩ => ⟨S40000x32, .f32⟩
  | .hbm, ⟨14, _⟩ => ⟨S1280000x1, .f32⟩
  | .hbm, ⟨15, _⟩ => ⟨S4x64, .f32⟩
  | .hbm, ⟨16, _⟩ => ⟨S1x64, .f32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S40000x1, .f32⟩
  | .hbm, ⟨22, _⟩ => ⟨S1x64, .f32⟩
  | .hbm, ⟨23, _⟩ => ⟨S1x64, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S40000x64, .f32⟩
  | .local _ .vmem, ⟨0, _⟩ => ⟨S12800x4, .f32⟩
  | .local _ .vmem, ⟨1, _⟩ => ⟨S12800x4, .f32⟩
  | .local _ .vmem, ⟨2, _⟩ => ⟨S12800x1, .f32⟩
  | .local _ .vmem, ⟨3, _⟩ => ⟨S12800x1, .f32⟩
  | .local _ .vmem, ⟨4, _⟩ => ⟨S4x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x1, .f32⟩
  | .local _ .vmem, ⟨9, _⟩ => ⟨S12800x4, .f32⟩
  | .local _ .vmem, ⟨10, _⟩ => ⟨S12800x4, .f32⟩
  | .local _ .vmem, ⟨11, _⟩ => ⟨S12800x1, .f32⟩
  | .local _ .vmem, ⟨12, _⟩ => ⟨S12800x1, .f32⟩
  | .local _ .vmem, ⟨13, _⟩ => ⟨S400x1, .f32⟩
  | .local _ .vmem, ⟨14, _⟩ => ⟨S400x1, .f32⟩
  | .local _ .vmem, ⟨15, _⟩ => ⟨S4x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S400x64, .f32⟩
  | .local _ .vmem, ⟨20, _⟩ => ⟨S400x64, .f32⟩
  | _, _ => ⟨S40000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12800x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S40000x32x4_S1280000x4 : S40000x32x4.ShapeCasts S1280000x4
  bcast_S32_S1x32_1 : S32.BroadcastsInDim S1x32 (![1] : Fin 1 → Fin S1x32.rank)
  bcast_S40000_S40000x1_0 : S40000.BroadcastsInDim S40000x1 (![0] : Fin 1 → Fin S40000x1.rank)
  bcast_S1x32_S40000x32_0_1 : S1x32.BroadcastsInDim S40000x32 (![0, 1] : Fin 2 → Fin S40000x32.rank)
  bcast_S40000x1_S40000x32_0_1 : S40000x1.BroadcastsInDim S40000x32 (![0, 1] : Fin 2 → Fin S40000x32.rank)
  shapeCasts_S40000x32_S1280000x1 : S40000x32.ShapeCasts S1280000x1
  transposes_S64x4_S4x64_1_0 : S64x4.Transposes [1, 0] S4x64
  shapeCasts_S64_S1x64 : S64.ShapeCasts S1x64
  bcast_S_S40000 : S_.BroadcastsInDim S40000 (![] : Fin 0 → Fin S40000.rank)
  shapeCasts_S40000_S40000x1 : S40000.ShapeCasts S40000x1
  inb_S1x64_S1x64_0_0 : ∀ a, (![0, 0] : Fin 2 → Nat) a + S1x64.size a ≤ S1x64.size a
  h_S1x64 : 0 < S1x64.numel
  inb_S1x1_S1x1_0_0 : ∀ a, (![0, 0] : Fin 2 → Nat) a + S1x1.size a ≤ S1x1.size a
  h_S1x1 : 0 < S1x1.numel
  inb_S12800x4_S12800x4_0_0 : ∀ a, (![0, 0] : Fin 2 → Nat) a + S12800x4.size a ≤ S12800x4.size a
  h_S12800x4 : 0 < S12800x4.numel
  shapeCasts_S12800x4_S12800x4 : S12800x4.ShapeCasts S12800x4
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  shapeCasts_S4x64_S4x64 : S4x64.ShapeCasts S4x64
  shapeCasts_S1x64_S1x64 : S1x64.ShapeCasts S1x64
  broadcasts_S1x64_S12800x64 : S1x64.Broadcasts S12800x64
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  broadcasts_S12800x1_S12800x64 : S12800x1.Broadcasts S12800x64
  reduces_S12800x64_S64 : S12800x64.Reduces [0] S64
  shapeCasts_S1x1_S1x1 : S1x1.ShapeCasts S1x1
  reduces_S12800x1_S1 : S12800x1.Reduces [0] S1
  shapeCasts_S1_S1x1 : S1.ShapeCasts S1x1
  shapeCasts_S1x1_S_ : S1x1.ShapeCasts S_
  bcast_S_S1x64 : S_.BroadcastsInDim S1x64 (![] : Fin 0 → Fin S1x64.rank)
  shapeCasts_S12800x64_S400x32x64 : S12800x64.ShapeCasts S400x32x64
  reduces_S400x32x64_S400x64 : S400x32x64.Reduces [1] S400x64
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S12800x4_S4x64_S12800x64_1_0_0_1_n_n_wf : DotDims.WF S12800x4 S4x64 S12800x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x4.size a ≤ S1280000x4.size a
  hwx0_0 : ∀ i : grid0.Coords, EltTy.bits .f32 = 32 ∨ (Rect.block (s := S1280000x4) S12800x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S1280000x1.size a
  hwx0_1 : ∀ i : grid0.Coords, EltTy.bits .f32 = 32 ∨ (Rect.block (s := S1280000x1) S12800x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x4.size a ≤ S1280000x4.size a
  hwx1_0 : ∀ i : grid1.Coords, EltTy.bits .f32 = 32 ∨ (Rect.block (s := S1280000x4) S12800x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x1.size a ≤ S1280000x1.size a
  hwx1_1 : ∀ i : grid1.Coords, EltTy.bits .f32 = 32 ∨ (Rect.block (s := S1280000x1) S12800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S40000x1.size a
  hwx1_2 : ∀ i : grid1.Coords, EltTy.bits .f32 = 32 ∨ (Rect.block (s := S40000x1) S400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x64.size a ≤ S40000x64.size a
  hwx1_7 : ∀ i : grid1.Coords, EltTy.bits .f32 = 32 ∨ (Rect.block (s := S40000x64) S400x64.size (cc1_transform_7 i) (hinb1_7 i)).WholeWords (EltTy.packing .f32)

variable [Facts₀]

def dot_S12800x4_S4x64_S12800x64_1_0_0_1_n_n : DotDims S12800x4 S4x64 S12800x64 where
  lhsContracting := [1]
  rhsContracting := [0]
  lhsNonContracting := [0]
  rhsNonContracting := [1]
  lhsBatch := []
  rhsBatch := []
  wf := dot_S12800x4_S4x64_S12800x64_1_0_0_1_n_n_wf

abbrev win0_0 : Pipeline.Window sig grid0 :=
  Pipeline.Window.ofSpec (Memref.whole main_v0) S12800x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S12800x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S12800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S400x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x32x4 : Shape := ⟨3, ![40000, 32, 4]⟩
abbrev S40000 : Shape := ⟨1, ![40000]⟩
abbrev S64x4 : Shape := ⟨2, ![64, 4]⟩
abbrev S64 : Shape := ⟨1, ![64]⟩
abbrev S32 : Shape := ⟨1, ![32]⟩
abbrev S1x32 : Shape := ⟨2, ![1, 32]⟩
abbrev S40000x1 : Shape := ⟨2, ![40000, 1]⟩
abbrev S40000x32 : Shape := ⟨2, ![40000, 32]⟩
abbrev S40000x32x1 : Shape := ⟨3, ![40000, 32, 1]⟩
abbrev S40000x32x64 : Shape := ⟨3, ![40000, 32, 64]⟩
abbrev S1x1x64 : Shape := ⟨3, ![1, 1, 64]⟩
abbrev S_ : Shape := ⟨0, ![]⟩
abbrev S40000x64 : Shape := ⟨2, ![40000, 64]⟩

abbrev nBuf : Space → Nat
  | .hbm => 67
  | .vmem => 0
  | .smem => 0
  | _ => 0

abbrev bufTy : (tb : Table) → Fin (tcTables nBuf tb) → BufTy
  | .hbm, ⟨0, _⟩ => ⟨S40000x32x4, .f32⟩
  | .hbm, ⟨1, _⟩ => ⟨S40000, .i32⟩
  | .hbm, ⟨2, _⟩ => ⟨S64x4, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S32, .i32⟩
  | .hbm, ⟨7, _⟩ => ⟨S1x32, .i32⟩
  | .hbm, ⟨8, _⟩ => ⟨S40000x1, .i32⟩
  | .hbm, ⟨9, _⟩ => ⟨S40000x32, .i32⟩
  | .hbm, ⟨10, _⟩ => ⟨S40000x32, .i32⟩
  | .hbm, ⟨11, _⟩ => ⟨S40000x32, .i1⟩
  | .hbm, ⟨12, _⟩ => ⟨S40000x32, .f32⟩
  | .hbm, ⟨13, _⟩ => ⟨S40000x32x1, .f32⟩
  | .hbm, ⟨14, _⟩ => ⟨S40000x32x64, .f32⟩
  | .hbm, ⟨15, _⟩ => ⟨S1x1x64, .f32⟩
  | .hbm, ⟨16, _⟩ => ⟨S40000x32x64, .f32⟩
  | .hbm, ⟨17, _⟩ => ⟨S40000x32x64, .f32⟩
  | .hbm, ⟨18, _⟩ => ⟨S40000x32x64, .f32⟩
  | .hbm, ⟨19, _⟩ => ⟨S40000x32x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x1x64, .f32⟩
  | .hbm, ⟨29, _⟩ => ⟨S40000x32x64, .f32⟩
  | .hbm, ⟨30, _⟩ => ⟨S40000x32x64, .f32⟩
  | .hbm, ⟨31, _⟩ => ⟨S40000x32x64, .f32⟩
  | .hbm, ⟨32, _⟩ => ⟨S40000x32x64, .f32⟩
  | .hbm, ⟨33, _⟩ => ⟨S40000x32x64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x1x64, .f32⟩
  | .hbm, ⟨43, _⟩ => ⟨S40000x32x64, .f32⟩
  | .hbm, ⟨44, _⟩ => ⟨S40000x32x64, .f32⟩
  | .hbm, ⟨45, _⟩ => ⟨S1x1x64, .f32⟩
  | .hbm, ⟨46, _⟩ => ⟨S40000x32x64, .f32⟩
  | .hbm, ⟨47, _⟩ => ⟨S40000x32x64, .f32⟩
  | .hbm, ⟨48, _⟩ => ⟨S1x1x64, .f32⟩
  | .hbm, ⟨49, _⟩ => ⟨S40000x32x64, .f32⟩
  | .hbm, ⟨50, _⟩ => ⟨S40000x32x64, .f32⟩
  | .hbm, ⟨51, _⟩ => ⟨S40000x32x64, .f32⟩
  | .hbm, ⟨52, _⟩ => ⟨S40000x32x64, .f32⟩
  | .hbm, ⟨53, _⟩ => ⟨S_, .f32⟩
  | .hbm, ⟨54, _⟩ => ⟨S40000x32x64, .f32⟩
  | .hbm, ⟨55, _⟩ => ⟨S40000x32x64, .f32⟩
  | .hbm, ⟨56, _⟩ => ⟨S40000x32x64, .f32⟩
  | .hbm, ⟨57, _⟩ => ⟨S40000x32x64, .f32⟩
  | .hbm, ⟨58, _⟩ => ⟨S40000, .f32⟩
  | .hbm, ⟨59, _⟩ => ⟨S_, .f32⟩
  | .hbm, ⟨60, _⟩ => ⟨S40000, .f32⟩
  | .hbm, ⟨61, _⟩ => ⟨S40000, .f32⟩
  | .hbm, ⟨62, _⟩ => ⟨S40000x1, .f32⟩
  | .hbm, ⟨63, _⟩ => ⟨S_, .f32⟩
  | .hbm, ⟨64, _⟩ => ⟨S40000x64, .f32⟩
  | .hbm, ⟨65, _⟩ => ⟨S40000x64, .f32⟩
  | .hbm, ⟨66, _⟩ => ⟨S40000x64, .f32⟩
  | _, _ => ⟨S40000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_cst : Ref sig .tc := ⟨.hbm, 53, rfl⟩
abbrev main_call0_v0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S40000_S40000x1_0 : S40000.BroadcastsInDim S40000x1 (![0] : Fin 1 → Fin S40000x1.rank)
  bcast_S1x32_S40000x32_0_1 : S1x32.BroadcastsInDim S40000x32 (![0, 1] : Fin 2 → Fin S40000x32.rank)
  bcast_S40000x1_S40000x32_0_1 : S40000x1.BroadcastsInDim S40000x32 (![0, 1] : Fin 2 → Fin S40000x32.rank)
  bcast_S40000x32_S40000x32x1_0_1 : S40000x32.BroadcastsInDim S40000x32x1 (![0, 1] : Fin 2 → Fin S40000x32x1.rank)
  bcast_S64_S1x1x64_2 : S64.BroadcastsInDim S1x1x64 (![2] : Fin 1 → Fin S1x1x64.rank)
  bcast_S1x1x64_S40000x32x64_0_1_2 : S1x1x64.BroadcastsInDim S40000x32x64 (![0, 1, 2] : Fin 3 → Fin S40000x32x64.rank)
  bcast_S40000x32x1_S40000x32x64_0_1_2 : S40000x32x1.BroadcastsInDim S40000x32x64 (![0, 1, 2] : Fin 3 → Fin S40000x32x64.rank)
  reducesTo_S40000x32x1_S_d0_1_2 : S40000x32x1.ReducesTo [0, 1, 2] S_
  h_S_ : 0 < S_.numel
  reducesTo_S40000x32x64_S64_d0_1 : S40000x32x64.ReducesTo [0, 1] S64
  bcast_S_S64 : S_.BroadcastsInDim S64 (![] : Fin 0 → Fin S64.rank)
  bcast_S_S40000x32x64 : S_.BroadcastsInDim S40000x32x64 (![] : Fin 0 → Fin S40000x32x64.rank)
  bcast_S_S40000 : S_.BroadcastsInDim S40000 (![] : Fin 0 → Fin S40000.rank)
  reducesTo_S40000x32x64_S40000x64_d1 : S40000x32x64.ReducesTo [1] S40000x64
  bcast_S40000x1_S40000x64_0_1 : S40000x1.BroadcastsInDim S40000x64 (![0, 1] : Fin 2 → Fin S40000x64.rank)
  dot_S40000x32x4_S64x4_S40000x32x64_2_1_01_0_n_n_wf : DotDims.WF S40000x32x4 S64x4 S40000x32x64 [2] [1] [0, 1] [0] [] []

variable [Facts₀]

def dot_S40000x32x4_S64x4_S40000x32x64_2_1_01_0_n_n : DotDims S40000x32x4 S64x4 S40000x32x64 where
  lhsContracting := [2]
  rhsContracting := [1]
  lhsNonContracting := [0, 1]
  rhsNonContracting := [0]
  lhsBatch := []
  rhsBatch := []
  wf := dot_S40000x32x4_S64x4_S40000x32x64_2_1_01_0_n_n_wf

class Facts : Prop extends Facts₀ where

variable [Facts]
-- ==== Proof.KernelRun.lean ====
/-
  The idealized kernel's run with its result named.

  @main is four segments: the host operations that lay out the operands, the statistics pass, the host operations that
  fold the statistics into a scale and a shift per channel, and the pooling pass.  The buffer contents at the last
  boundary are `Gen.W4`; every weakly fair execution ends with each unscoped buffer at those contents.  Read at the
  result buffer this names the result; read at an argument it is the argument as launched.
-/
import proofs.«165832_j45784351375623_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six arguments as launched. -/
theorem run_named : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The result buffer's last contents are what the pooling pass's write-backs leave in its array. -/
theorem W4_result (c : Dev nD) :
    W4 m ρ c (Proc.devRef .tc main_v34) = (dat1 (V3 m ρ) c).arrAt 7 cfg1.N := W4_arr m ρ c 7

end Cert.KernelIdeal.RunValue

end
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.BlockBody.lean ====
/-
  One block of the kernels' arithmetic, read at an entry.

  Both passes load a block of 12800 points (400 voxels of 32 points): its features `x` [12800, 4], its validity column
  `mk` [12800, 1], the transposed weights `w` [4, 64] and the bias row `b` [1, 64].  Entry `(r, o)` of the masked
  linear map is `(∑ₖ x(r,k) · w(k,o) + b(0,o)) · mk(r,0)`: the matrix product into a zero accumulator is the exact sum,
  a change of float format is the identity, and the two broadcasts read the row's, respectively the column's, entry.
  The pooling pass applies a scale row and a shift row, clips at zero, masks, regroups the 12800 rows as 400 × 32 —
  row `32 q + p` is point `p` of the block's voxel `q` — sums over `p`, and divides by the voxel's count.
-/
import proofs.«165832_j45784351375623_2_alg».proof.Proof.Gen.KernelIdeal.Skeleton
import proofs.«165832_j45784351375623_2_alg».proof.Proof.LibMatmulRead
import proofs.«165832_j45784351375623_2_alg».proof.Proof.LibRowsProduct
import proofs.«165832_j45784351375623_2_alg».proof.Proof.LibBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.KernelIdeal.Facts₀ Cert.KernelIdeal.Facts
open Idealize.ShloMosaic Idealize.ShloMosaic.ValueIdx

/-- Row `32 q + p` of a block of 400 voxels: point `p` of the block's voxel `q`. -/
def brow (q : Fin 400) (p : Fin 32) : Fin 12800 := ⟨q.val * 32 + p.val, by have := q.isLt; have := p.isLt; omega⟩

/-- Entry `(r, o)` of the block's product with the transposed weights, accumulated from zero: `∑ₖ x(r,k) · w(k,o)`. -/
theorem dot_apply (x : FVec Ideal S12800x4 .bf16) (w : FVec Ideal S4x64 .bf16) (r : Fin 12800) (o : Fin 64) :
    matmul dot_S12800x4_S4x64_S12800x64_1_0_0_1_n_n none x w (constant (F := Ideal) S12800x64 .f32 0x00000000#32) (ix2 r o)
      = ∑ k : Fin 4, x (ix2 r k) * w (ix2 k o) :=
  Cert.Contract.matmul_zero_ix2 dot_S12800x4_S4x64_S12800x64_1_0_0_1_n_n none rfl rfl
    (fun i q => by unfold DotDims.lhsIdx; rw [dif_neg (by decide), dif_pos (by decide)]; rfl)
    (fun i q => dot_S12800x4_S4x64_S12800x64_1_0_0_1_n_n.lhsIdx_val_of_single rfl i q)
    (fun i q => dot_S12800x4_S4x64_S12800x64_1_0_0_1_n_n.rhsIdx_val_of_single rfl i q)
    (fun i q => by unfold DotDims.rhsIdx; rw [dif_neg (by decide), dif_pos (by decide)]; rfl)
    x w r o

/-- The masked linear map of a block at `(r, o)`. -/
theorem masked_lin_apply (x : Vec Ideal S12800x4 .f32) (w : Vec Ideal S4x64 .f32) (b : Vec Ideal S1x64 .f32)
    (mk : Vec Ideal S12800x1 .f32) (r : Fin 12800) (o : Fin 64) :
    k0_pay6 x w b mk (ix2 r o)
      = ((∑ k : Fin 4, x (ix2 r k) * w (ix2 k o)) + b (ix2 (0 : Fin 1) o)) * mk (ix2 r (0 : Fin 1)) := by
  unfold k0_pay6 k0_pay5
  simp only [shapeCast_self]
  rw [mulf_apply, addf_apply, dot_apply, Cert.RowsProduct.broadcastTo_1n_an_apply, Cert.Layout.broadcastTo_a1_ab_apply]
  rfl

/-- The pooling pass's result for voxel `q` of the block, channel `o`: the sum over the voxel's 32 points of the clipped,
    masked affine image of the linear map, divided by the voxel's count. -/
theorem pool_apply (x : Vec Ideal S12800x4 .f32) (w : Vec Ideal S4x64 .f32) (b : Vec Ideal S1x64 .f32)
    (mk : Vec Ideal S12800x1 .f32) (sc sh : Vec Ideal S1x64 .f32) (cn : Vec Ideal S400x1 .f32) (q : Fin 400) (o : Fin 64) :
    k1_pay1 x w b mk sc sh cn (ix2 q o)
      = Ideal.div (∑ p : Fin 32,
          max (((∑ k : Fin 4, x (ix2 (brow q p) k) * w (ix2 k o)) + b (ix2 (0 : Fin 1) o)) * sc (ix2 (0 : Fin 1) o)
                + sh (ix2 (0 : Fin 1) o)) 0 * mk (ix2 (brow q p) (0 : Fin 1)))
          (cn (ix2 q (0 : Fin 1))) := by
  unfold k1_pay1
  simp only [shapeCast_self]
  rw [divf_apply, Cert.Layout.broadcastTo_a1_ab_apply]
  refine congrArg (Ideal.div · _) ?_
  refine (Ideal.multiReduction_add_single _ _ _ _ _ _).trans ?_
  refine Finset.sum_congr rfl fun p _ => ?_
  rw [shapeCast_apply _ _ _ (ix2 (brow q p) o) (by
    rw [Shape.rowMajor_val_two, Shape.rowMajor_val_three]
    show (q.val * 32 + p.val) * 64 + o.val = (q.val * 32 + p.val) * 64 + o.val
    rfl)]
  rw [mulf_apply, maximumf_apply, addf_apply, mulf_apply, addf_apply, dot_apply,
    Cert.RowsProduct.broadcastTo_1n_an_apply, Cert.RowsProduct.broadcastTo_1n_an_apply,
    Cert.RowsProduct.broadcastTo_1n_an_apply, Cert.Layout.broadcastTo_a1_ab_apply, broadcast_apply]
  rw [show (FloatOps.ofBits (F := Ideal) .f32 0x00000000#32 : EReal) = 0 from Ideal.ofBits_zero_f32]
  rfl

end Cert.KernelIdeal.Body

end
-- ==== Proof.Spec.lean ====
/-
  Voxel features: a linear map of every point of a voxel, batch normalisation over the VALID points of all voxels, a
  rectifier, and the mean over a voxel's valid points — the mathematical statement, on the extended reals.

  There are 40000 voxels of 32 points; point `p` of voxel `v` is row `32 v + p` of the flattened arrays.  A point is
  valid when `p` is below the voxel's count; `Mk` is the indicator of validity.  With `lin j o = ∑ₖ X j k · W o k + B o`
  and `hm = lin · Mk`, the statistics are `sumH o = ∑ⱼ hm j o`, `sumSq o = ∑ⱼ hm j o²`, `sumM = ∑ⱼ Mk j`.

  Two arrangements of the normalisation are stated.  The first folds mean and variance into one affine map per channel:
  variance `max (sumSq / N − mean², 0)`, scale `γ · rsqrt (var + ε)`, shift `β − mean · scale`, and the activation
  `max (lin · scale + shift, 0) · Mk`.  The second centres first: deviation `(hm − mean) · Mk`, variance the mean of its
  squares, activation `max (dev · rsqrt (var + ε) · γ + β · Mk, 0) · Mk`.  Both end by dividing a voxel's sum over its points
  by the voxel's count.
-/
import Idealize.ShloMosaic.PureOps.Ideal
import Idealize.ShloMosaic.Lib.ValueIdx

noncomputable section

namespace Cert.VoxelNorm

open Idealize.ShloMosaic Idealize.ShloMosaic.ValueIdx

/-- Point `p` of voxel `v` as a row of the flattened arrays. -/
def row (v : Fin 40000) (p : Fin 32) : Fin 1280000 :=
  ⟨v.val * 32 + p.val, by have := v.isLt; have := p.isLt; omega⟩

/-- The float pattern of `1.0`. -/
def one : EReal := Ideal.ofBits .f32 0x3F800000#32
/-- The float pattern of the variance offset `ε`. -/
def eps : EReal := Ideal.ofBits .f32 0x3727C5AC#32

/-! ## Arrays as functions of their coordinates -/

section Views
variable {a b : ℕ}
/-- A matrix by row and column. -/
def entries (x : (⟨2, ![a, b]⟩ : Shape).Idx → EReal) (p : Fin a) (q : Fin b) : EReal := x (ix2 p q)
/-- A matrix by column and row. -/
def entriesT (x : (⟨2, ![a, b]⟩ : Shape).Idx → EReal) (q : Fin b) (p : Fin a) : EReal := x (ix2 p q)
/-- A one-column matrix by row. -/
def column (x : (⟨2, ![a, 1]⟩ : Shape).Idx → EReal) (p : Fin a) : EReal := x (ix2 p (0 : Fin 1))
/-- A one-row matrix by column. -/
def rowOf (x : (⟨2, ![1, b]⟩ : Shape).Idx → EReal) (q : Fin b) : EReal := x (ix2 (0 : Fin 1) q)
/-- A vector by position. -/
def vector (x : (⟨1, ![b]⟩ : Shape).Idx → EReal) (q : Fin b) : EReal := x (ix1 q)
end Views

/-- The points' features, one row per point. -/
def pointsOf (x : (⟨3, ![40000, 32, 4]⟩ : Shape).Idx → EReal) (j : Fin 1280000) (k : Fin 4) : EReal :=
  x (ix3 (⟨j.val / 32, by have := j.isLt; omega⟩ : Fin 40000) (⟨j.val % 32, Nat.mod_lt _ (by decide)⟩ : Fin 32) k)

/-- Validity of a point: its position in the voxel is below the voxel's count (compared as signed words). -/
def maskOf (n : (⟨1, ![40000]⟩ : Shape).Idx → BitVec 32) (j : Fin 1280000) : EReal :=
  FloatOps.uitofp (F := Ideal) .f32
    (IntOp.cmpi .slt (BitVec.ofNat 32 (j.val % 32)) (n (ix1 (⟨j.val / 32, by have := j.isLt; omega⟩ : Fin 40000))))

/-- A voxel's count as a float, at least one. -/
def countsOf (n : (⟨1, ![40000]⟩ : Shape).Idx → BitVec 32) (v : Fin 40000) : EReal :=
  max (FloatOps.sitofp (F := Ideal) .f32 (n (ix1 v))) one

/-! ## The statistics -/

section Stats
variable (X : Fin 1280000 → Fin 4 → EReal) (Mk : Fin 1280000 → EReal) (Wt : Fin 64 → Fin 4 → EReal) (B : Fin 64 → EReal)

/-- The linear map of point `j`, channel `o`. -/
def lin (j : Fin 1280000) (o : Fin 64) : EReal := (∑ k : Fin 4, X j k * Wt o k) + B o
/-- The same, zero on an invalid point. -/
def hm (j : Fin 1280000) (o : Fin 64) : EReal := lin X Wt B j o * Mk j
/-- Sum over all points. -/
def sumH (o : Fin 64) : EReal := ∑ j : Fin 1280000, hm X Mk Wt B j o
/-- Sum of squares over all points. -/
def sumSq (o : Fin 64) : EReal := ∑ j : Fin 1280000, hm X Mk Wt B j o * hm X Mk Wt B j o
/-- The number of valid points. -/
def sumM : EReal := ∑ j : Fin 1280000, Mk j
end Stats

/-! ## The folded arrangement -/

/-- The divisor: the number of valid points, at least one. -/
def count (sM : EReal) : EReal := max sM one
/-- The mean of a channel. -/
def meanOf (sH : Fin 64 → EReal) (sM : EReal) (o : Fin 64) : EReal := Ideal.div (sH o) (count sM)
/-- Variance as mean of squares minus squared mean, clipped at zero. -/
def varK (sH sQ : Fin 64 → EReal) (sM : EReal) (o : Fin 64) : EReal :=
  max (Ideal.div (sQ o) (count sM) - meanOf sH sM o * meanOf sH sM o) 0
/-- The per-channel scale. -/
def scaleK (Ga sH sQ : Fin 64 → EReal) (sM : EReal) (o : Fin 64) : EReal :=
  Ga o * Ideal.rsqrt (varK sH sQ sM o + eps)
/-- The per-channel shift. -/
def shiftK (Ga Be sH sQ : Fin 64 → EReal) (sM : EReal) (o : Fin 64) : EReal :=
  Be o - meanOf sH sM o * scaleK Ga sH sQ sM o

/-- The affine map, rectifier and mask of every point of a voxel, summed over the voxel and divided by its count, for
    ANY scale and shift rows. -/
def pooled (X : Fin 1280000 → Fin 4 → EReal) (Mk : Fin 1280000 → EReal) (Wt : Fin 64 → Fin 4 → EReal) (B Sc Sh : Fin 64 → EReal)
    (Cn : Fin 40000 → EReal) (v : Fin 40000) (o : Fin 64) : EReal :=
  Ideal.div (∑ p : Fin 32, max (lin X Wt B (row v p) o * Sc o + Sh o) 0 * Mk (row v p)) (Cn v)

/-- The result in the folded arrangement. -/
def outK (X : Fin 1280000 → Fin 4 → EReal) (Mk : Fin 1280000 → EReal) (Wt : Fin 64 → Fin 4 → EReal) (B Ga Be : Fin 64 → EReal)
    (Cn : Fin 40000 → EReal) (v : Fin 40000) (o : Fin 64) : EReal :=
  pooled X Mk Wt B (scaleK Ga (sumH X Mk Wt B) (sumSq X Mk Wt B) (sumM Mk))
    (shiftK Ga Be (sumH X Mk Wt B) (sumSq X Mk Wt B) (sumM Mk)) Cn v o

/-! ## The centred arrangement -/

section Centred
variable (X : Fin 1280000 → Fin 4 → EReal) (Mk : Fin 1280000 → EReal) (Wt : Fin 64 → Fin 4 → EReal) (B : Fin 64 → EReal)

/-- Deviation from the mean, zero on an invalid point. -/
def dev (j : Fin 1280000) (o : Fin 64) : EReal :=
  (hm X Mk Wt B j o - meanOf (sumH X Mk Wt B) (sumM Mk) o) * Mk j
/-- Variance as the mean of the squared deviations. -/
def varR (o : Fin 64) : EReal :=
  Ideal.div (∑ j : Fin 1280000, dev X Mk Wt B j o * dev X Mk Wt B j o) (count (sumM Mk))
end Centred

/-- The result in the centred arrangement. -/
def outR (X : Fin 1280000 → Fin 4 → EReal) (Mk : Fin 1280000 → EReal) (Wt : Fin 64 → Fin 4 → EReal) (B Ga Be : Fin 64 → EReal)
    (Cn : Fin 40000 → EReal) (v : Fin 40000) (o : Fin 64) : EReal :=
  Ideal.div (∑ p : Fin 32,
      max (dev X Mk Wt B (row v p) o * Ideal.rsqrt (varR X Mk Wt B o + eps) * Ga o + Be o * Mk (row v p)) 0 * Mk (row v p))
    (Cn v)

end Cert.VoxelNorm

end
-- ==== Proof.PoolValue.lean ====
/-
  The pooling pass: what its result array holds.

  The pass runs over 100 grid points; point `t` holds voxels `400 t … 400 t + 399`, that is rows `12800 t …` of the
  flattened points and of the mask column, and rows `400 t …` of the counts column; the transposed weights, the bias row,
  the scale row and the shift row are resident.  Each point writes back its own 400 rows of the result, and the 100
  blocks tile the result array.  So entry `(v, o)` of the result array is `pooled` — the clipped, masked affine image
  of the linear map, summed over voxel `v`'s 32 points and divided by its count — of the arrays as the pass finds
  them, whatever those are (`V`).
-/
import proofs.«165832_j45784351375623_2_alg».proof.Proof.Gen.KernelIdeal.Frame
import proofs.«165832_j45784351375623_2_alg».proof.Proof.BlockBody
import proofs.«165832_j45784351375623_2_alg».proof.Proof.Spec
import Idealize.ShloMosaic.Lib.Pipeline.Value

set_option maxRecDepth 16384

noncomputable section

namespace Cert.KernelIdeal.Pool

open Cert.KernelIdeal Cert.KernelIdeal.Gen Cert.KernelIdeal.Body Cert.VoxelNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index of every window at every point: the point's number along the rows for the windows that move, zero for
    the resident ones. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Voxel `q` of the block at point `t`. -/
def vox (t : Fin cfg1.N) (q : Fin 400) : Fin 40000 :=
  ⟨400 * t.val + q.val, by have := t.isLt; have hN : cfg1.N = 100 := N_1; have := q.isLt; omega⟩

theorem blk0 (t : Fin cfg1.N) (q : Fin 400) (p : Fin 32) (k : Fin 4) :
    iblk1 V c 0 t (ix2 (brow q p) k) = entries (V c main_v0 : S1280000x4.Idx → EReal) (row (vox t q) p) k := by
  unfold iblk1
  rw [View.read_apply]
  show (V c main_v0 : S1280000x4.Idx → EReal) _ = (V c main_v0 : S1280000x4.Idx → EReal) (ix2 (row (vox t q) p) k)
  refine congrArg _ (funext fun a => Fin.ext ?_)
  obtain ⟨e0, e1, -⟩ := idx_facts t
  match a with
  | ⟨0, _⟩ =>
    show win1_0.index t (0 : Fin 2) * 12800 + 1 * (q.val * 32 + p.val) = (400 * t.val + q.val) * 32 + p.val
    rw [e0]; omega
  | ⟨1, _⟩ =>
    show win1_0.index t (1 : Fin 2) * 4 + 1 * k.val = k.val
    rw [e1]; omega

theorem blk1 (t : Fin cfg1.N) (q : Fin 400) (p : Fin 32) :
    iblk1 V c 1 t (ix2 (brow q p) (0 : Fin 1)) = column (V c main_v8 : S1280000x1.Idx → EReal) (row (vox t q) p) := by
  unfold iblk1
  rw [View.read_apply]
  show (V c main_v8 : S1280000x1.Idx → EReal) _ = (V c main_v8 : S1280000x1.Idx → EReal) (ix2 (row (vox t q) p) (0 : Fin 1))
  refine congrArg _ (funext fun a => Fin.ext ?_)
  obtain ⟨-, -, e0, e1, -⟩ := idx_facts t
  match a with
  | ⟨0, _⟩ =>
    show win1_1.index t (0 : Fin 2) * 12800 + 1 * (q.val * 32 + p.val) = (400 * t.val + q.val) * 32 + p.val
    rw [e0]; omega
  | ⟨1, _⟩ =>
    show win1_1.index t (1 : Fin 2) * 1 + 1 * 0 = 0
    rw [e1]

theorem blk2 (t : Fin cfg1.N) (q : Fin 400) :
    iblk1 V c 2 t (ix2 q (0 : Fin 1)) = column (V c main_v14 : S40000x1.Idx → EReal) (vox t q) := by
  unfold iblk1
  rw [View.read_apply]
  show (V c main_v14 : S40000x1.Idx → EReal) _ = (V c main_v14 : S40000x1.Idx → EReal) (ix2 (vox t q) (0 : Fin 1))
  refine congrArg _ (funext fun a => Fin.ext ?_)
  obtain ⟨-, -, -, -, e0, e1, -⟩ := idx_facts t
  match a with
  | ⟨0, _⟩ =>
    show win1_2.index t (0 : Fin 2) * 400 + 1 * q.val = 400 * t.val + q.val
    rw [e0]; omega
  | ⟨1, _⟩ =>
    show win1_2.index t (1 : Fin 2) * 1 + 1 * 0 = 0
    rw [e1]

theorem blk3 (t : Fin cfg1.N) (k : Fin 4) (o : Fin 64) :
    iblk1 V c 3 t (ix2 k o) = entriesT (V c main_v9 : S4x64.Idx → EReal) o k := by
  unfold iblk1
  rw [View.read_apply]
  show (V c main_v9 : S4x64.Idx → EReal) _ = (V c main_v9 : S4x64.Idx → EReal) (ix2 k o)
  refine congrArg _ (funext fun a => Fin.ext ?_)
  obtain ⟨-, -, -, -, -, -, e0, e1, -⟩ := idx_facts t
  match a with
  | ⟨0, _⟩ =>
    show win1_3.index t (0 : Fin 2) * 4 + 1 * k.val = k.val
    rw [e0]; omega
  | ⟨1, _⟩ =>
    show win1_3.index t (1 : Fin 2) * 64 + 1 * o.val = o.val
    rw [e1]; omega

theorem blk4 (t : Fin cfg1.N) (o : Fin 64) :
    iblk1 V c 4 t (ix2 (0 : Fin 1) o) = rowOf (V c main_v10 : S1x64.Idx → EReal) o := by
  unfold iblk1
  rw [View.read_apply]
  show (V c main_v10 : S1x64.Idx → EReal) _ = (V c main_v10 : S1x64.Idx → EReal) (ix2 (0 : Fin 1) o)
  refine congrArg _ (funext fun a => Fin.ext ?_)
  obtain ⟨-, -, -, -, -, -, -, -, e0, e1, -⟩ := idx_facts t
  match a with
  | ⟨0, _⟩ =>
    show win1_4.index t (0 : Fin 2) * 1 + 1 * 0 = 0
    rw [e0]
  | ⟨1, _⟩ =>
    show win1_4.index t (1 : Fin 2) * 64 + 1 * o.val = o.val
    rw [e1]; omega

theorem blk5 (t : Fin cfg1.N) (o : Fin 64) :
    iblk1 V c 5 t (ix2 (0 : Fin 1) o) = rowOf (V c main_v30 : S1x64.Idx → EReal) o := by
  unfold iblk1
  rw [View.read_apply]
  show (V c main_v30 : S1x64.Idx → EReal) _ = (V c main_v30 : S1x64.Idx → EReal) (ix2 (0 : Fin 1) o)
  refine congrArg _ (funext fun a => Fin.ext ?_)
  obtain ⟨-, -, -, -, -, -, -, -, -, -, e0, e1, -⟩ := idx_facts t
  match a with
  | ⟨0, _⟩ =>
    show win1_5.index t (0 : Fin 2) * 1 + 1 * 0 = 0
    rw [e0]
  | ⟨1, _⟩ =>
    show win1_5.index t (1 : Fin 2) * 64 + 1 * o.val = o.val
    rw [e1]; omega

theorem blk6 (t : Fin cfg1.N) (o : Fin 64) :
    iblk1 V c 6 t (ix2 (0 : Fin 1) o) = rowOf (V c main_v33 : S1x64.Idx → EReal) o := by
  unfold iblk1
  rw [View.read_apply]
  show (V c main_v33 : S1x64.Idx → EReal) _ = (V c main_v33 : S1x64.Idx → EReal) (ix2 (0 : Fin 1) o)
  refine congrArg _ (funext fun a => Fin.ext ?_)
  obtain ⟨-, -, -, -, -, -, -, -, -, -, -, -, e0, e1, -⟩ := idx_facts t
  match a with
  | ⟨0, _⟩ =>
    show win1_6.index t (0 : Fin 2) * 1 + 1 * 0 = 0
    rw [e0]
  | ⟨1, _⟩ =>
    show win1_6.index t (1 : Fin 2) * 64 + 1 * o.val = o.val
    rw [e1]; omega

/-- The pooling pass's result array, entry by entry: `pooled` of the arrays as the pass finds them. -/
def G (i : S40000x64.Idx) : EReal :=
  pooled (entries (V c main_v0 : S1280000x4.Idx → EReal)) (column (V c main_v8 : S1280000x1.Idx → EReal))
    (entriesT (V c main_v9 : S4x64.Idx → EReal)) (rowOf (V c main_v10 : S1x64.Idx → EReal))
    (rowOf (V c main_v30 : S1x64.Idx → EReal)) (rowOf (V c main_v33 : S1x64.Idx → EReal))
    (column (V c main_v14 : S40000x1.Idx → EReal)) ⟨(i 0).val, (i 0).isLt⟩ ⟨(i 1).val, (i 1).isLt⟩

/-- Entry `(q, o)` of the result window's block at point `t` is entry `(400 t + q, o)` of the array. -/
theorem emb7 (t : Fin cfg1.N) (q : Fin 400) (o : Fin 64) :
    ((cfg1.win 7).blk t).view.emb (ix2 q o) = (ix2 (vox t q) o : S40000x64.Idx) := by
  refine funext fun a => Fin.ext ?_
  obtain ⟨-, -, -, -, -, -, -, -, -, -, -, -, -, -, e0, e1⟩ := idx_facts t
  match a with
  | ⟨0, _⟩ =>
    show win1_7.index t (0 : Fin 2) * 400 + 1 * q.val = 400 * t.val + q.val
    rw [e0]; omega
  | ⟨1, _⟩ =>
    show win1_7.index t (1 : Fin 2) * 64 + 1 * o.val = o.val
    rw [e1]; omega

theorem flushed_eq (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S12800x4) hz, View.ld_unit_zero (S := S4x64) hz, View.ld_unit_zero (S := S1x64) hz,
    View.ld_unit_zero (S := S12800x1) hz, View.ld_unit_zero (S := S400x1) hz]
  funext y
  obtain ⟨q, o, rfl⟩ : ∃ (q : Fin 400) (o : Fin 64), y = ix2 q o := ⟨y 0, y 1, eq_ix2 y⟩
  show k1_pay1 (iblk1 V c 0 t) (iblk1 V c 3 t) (iblk1 V c 4 t) (iblk1 V c 1 t) (iblk1 V c 5 t) (iblk1 V c 6 t) (iblk1 V c 2 t) (ix2 q o)
    = G V c (((cfg1.win 7).blk t).view.emb (ix2 q o))
  rw [emb7]
  refine (pool_apply (iblk1 V c 0 t) (iblk1 V c 3 t) (iblk1 V c 4 t) (iblk1 V c 1 t) (iblk1 V c 5 t) (iblk1 V c 6 t)
    (iblk1 V c 2 t) q o).trans ?_
  simp only [blk0, blk1, blk2, blk3, blk4, blk5, blk6]
  rfl

/-- An index of the result array lies in point `t`'s block iff its row is one of the block's 400. -/
theorem mem_blk7 (t : Fin cfg1.N) (i : S40000x64.Idx) :
    i ∈ ((cfg1.win 7).blk t).view.set ↔ ∀ a : Fin 2, win1_7.index t a * S400x64.size a ≤ (i a).val ∧ (i a).val < win1_7.index t a * S400x64.size a + S400x64.size a := by
  show i ∈ ((View.whole main_v34).slice (win1_7.rect t)).set ↔ _
  rw [View.set_slice_whole, Rect.mem_set_unit]
  exact Iff.rfl

/-- Every entry of the result array is written back by the point that holds its voxel: row `r` by point `r / 400`. -/
theorem cover7 (i : S40000x64.Idx) : ∃ t : Fin cfg1.N, (cfg1.win 7).flush t = true ∧ i ∈ ((cfg1.win 7).blk t).view.set := by
  have hi0 : (i 0).val < 40000 := (i 0).isLt
  have hi1 : (i 1).val < 64 := (i 1).isLt
  have hN : cfg1.N = 100 := N_1
  refine ⟨⟨(i 0).val / 400, by rw [hN]; omega⟩, flush1_7 _, ?_⟩
  rw [mem_blk7]
  obtain ⟨-, -, -, -, -, -, -, -, -, -, -, -, -, -, e0, e1⟩ := idx_facts ⟨(i 0).val / 400, by rw [hN]; omega⟩
  intro a
  match a with
  | ⟨0, _⟩ =>
    show win1_7.index _ (0 : Fin 2) * 400 ≤ (i 0).val ∧ (i 0).val < win1_7.index _ (0 : Fin 2) * 400 + 400
    rw [e0]; show (i 0).val / 400 * 400 ≤ (i 0).val ∧ (i 0).val < (i 0).val / 400 * 400 + 400; omega
  | ⟨1, _⟩ =>
    show win1_7.index _ (1 : Fin 2) * 64 ≤ (i 1).val ∧ (i 1).val < win1_7.index _ (1 : Fin 2) * 64 + 64
    rw [e1]; omega

/-- THE RESULT ARRAY after the pooling pass: `pooled` of the arrays as the pass finds them, entry by entry. -/
theorem final7 : (dat1 V c).arrAt 7 cfg1.N = G V c :=
  (dat1 V c).arrAt_eq_of_cover 7 (G V c) (fun t _ => flushed_eq V c t) (cover7)

end Cert.KernelIdeal.Pool

end
-- ==== Proof.HostStages.lean ====
/-
  The host operations around the two passes, read entry by entry.

  Before the statistics pass @main lays its arguments out: the points re-laid as 1280000 rows of 4 features; the
  validity mask — position in the voxel below the voxel's count, as a float — re-laid as a column; the weights
  transposed; the bias as a row; each voxel's count as a float, at least one, as a column.  Between the passes it folds
  the three statistics into a scale row and a shift row.  The pooling pass finds the laid-out arrays as the statistics
  pass found them: that pass only reads them and nothing between the passes writes them.
-/
import proofs.«165832_j45784351375623_2_alg».proof.Proof.Gen.KernelIdeal.Frame
import proofs.«165832_j45784351375623_2_alg».proof.Proof.Spec
import proofs.«165832_j45784351375623_2_alg».proof.Proof.LibBroadcast
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

set_option maxRecDepth 16384

noncomputable section

namespace Cert.KernelIdeal.Host

open Cert.KernelIdeal Cert.KernelIdeal.Gen Cert.VoxelNorm
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The arrays the statistics pass finds, as terms of the arguments -/

theorem stage_v0 : (V1 m ρ c main_v0 : S1280000x4.Idx → EReal)
    = shapeCast S1280000x4 (m ((c : Thread nD τ).loc main_arg0)) shapeCasts_S40000x32x4_S1280000x4 := by
  show StableHlo.after hostOps0 (W0 m ρ c) (Proc.devRef .tc main_v0) = _
  after_results
  all_goals rfl

theorem stage_v8 : (V1 m ρ c main_v8 : S1280000x1.Idx → EReal)
    = shapeCast S1280000x1 (uitofp (F := Ideal) .f32 (cmpi .slt
        (broadcastInDim S40000x32 ![0, 1] bcast_S1x32_S40000x32_0_1 (broadcastInDim S1x32 ![1] bcast_S32_S1x32_1 (iotaInDim S32 32 0)))
        (broadcastInDim S40000x32 ![0, 1] bcast_S40000x1_S40000x32_0_1
          (broadcastInDim S40000x1 ![0] bcast_S40000_S40000x1_0 (m ((c : Thread nD τ).loc main_arg1))))))
      shapeCasts_S40000x32_S1280000x1 := by
  show StableHlo.after hostOps0 (W0 m ρ c) (Proc.devRef .tc main_v8) = _
  after_results
  all_goals rfl

theorem stage_v9 : (V1 m ρ c main_v9 : S4x64.Idx → EReal)
    = transpose S4x64 [1, 0] (m ((c : Thread nD τ).loc main_arg2)) transposes_S64x4_S4x64_1_0 := by
  show StableHlo.after hostOps0 (W0 m ρ c) (Proc.devRef .tc main_v9) = _
  after_results
  all_goals rfl

theorem stage_v10 : (V1 m ρ c main_v10 : S1x64.Idx → EReal)
    = shapeCast S1x64 (m ((c : Thread nD τ).loc main_arg3)) shapeCasts_S64_S1x64 := by
  show StableHlo.after hostOps0 (W0 m ρ c) (Proc.devRef .tc main_v10) = _
  after_results
  all_goals rfl

theorem stage_v14 : (V1 m ρ c main_v14 : S40000x1.Idx → EReal)
    = shapeCast S40000x1 (maximumf (sitofp .f32 (m ((c : Thread nD τ).loc main_arg1)))
        (broadcastInDim S40000 ![] bcast_S_S40000 (constant (F := Ideal) S_ .f32 0x3F800000#32))) shapeCasts_S40000_S40000x1 := by
  show StableHlo.after hostOps0 (W0 m ρ c) (Proc.devRef .tc main_v14) = _
  after_results
  all_goals rfl

/-! ## The same arrays, entry by entry -/

/-- The flattened points: row `j` is point `j % 32` of voxel `j / 32`. -/
theorem points_eq : entries (V1 m ρ c main_v0 : S1280000x4.Idx → EReal)
    = pointsOf (m ((c : Thread nD τ).loc main_arg0) : S40000x32x4.Idx → EReal) := by
  funext j k
  unfold entries pointsOf
  rw [stage_v0]
  refine shapeCast_apply _ _ _ _ ?_
  show (S40000x32x4.rowMajor (ix3 (⟨j.val / 32, _⟩ : Fin 40000) (⟨j.val % 32, _⟩ : Fin 32) k)).val = (S1280000x4.rowMajor (ix2 j k)).val
  rw [Shape.rowMajor_val_three, Shape.rowMajor_val_two]
  show ((j.val / 32) * 32 + j.val % 32) * 4 + k.val = j.val * 4 + k.val
  have := Nat.div_add_mod j.val 32
  omega

/-- The mask column: row `j` compares the point's position `j % 32` with voxel `j / 32`'s count. -/
theorem mask_eq : column (V1 m ρ c main_v8 : S1280000x1.Idx → EReal)
    = maskOf (m ((c : Thread nD τ).loc main_arg1) : S40000.Idx → BitVec 32) := by
  funext j
  unfold column maskOf
  rw [stage_v8]
  have hj := j.isLt
  rw [shapeCast_apply _ _ _ (ix2 (⟨j.val / 32, by omega⟩ : Fin 40000) (⟨j.val % 32, Nat.mod_lt _ (by decide)⟩ : Fin 32)) (by
    rw [Shape.rowMajor_val_two, Shape.rowMajor_val_two]
    show (j.val / 32) * 32 + j.val % 32 = j.val * 1 + 0
    have := Nat.div_add_mod j.val 32
    omega)]
  show FloatOps.uitofp (F := Ideal) .f32 (IntOp.cmpi .slt
      (broadcastInDim S40000x32 ![0, 1] bcast_S1x32_S40000x32_0_1 (broadcastInDim S1x32 ![1] bcast_S32_S1x32_1 (iotaInDim S32 32 0)) _)
      (broadcastInDim S40000x32 ![0, 1] bcast_S40000x1_S40000x32_0_1
        (broadcastInDim S40000x1 ![0] bcast_S40000_S40000x1_0 (m ((c : Thread nD τ).loc main_arg1))) _)) = _
  rw [broadcastInDim_apply _ bcast_S1x32_S40000x32_0_1 _ _ (ix2 (0 : Fin 1) (⟨j.val % 32, Nat.mod_lt _ (by decide)⟩ : Fin 32)) (fun a => by
      match a with
      | ⟨0, _⟩ => show 0 = if (1 : Nat) = 1 then 0 else _; rw [if_pos rfl]
      | ⟨1, _⟩ => show j.val % 32 = if (32 : Nat) = 1 then 0 else j.val % 32; rw [if_neg (by decide)]),
    broadcastInDim_apply _ bcast_S32_S1x32_1 _ _ (ix1 (⟨j.val % 32, Nat.mod_lt _ (by decide)⟩ : Fin 32)) (fun a => by
      match a with
      | ⟨0, _⟩ => show j.val % 32 = if (32 : Nat) = 1 then 0 else j.val % 32; rw [if_neg (by decide)]),
    broadcastInDim_apply _ bcast_S40000x1_S40000x32_0_1 _ _ (ix2 (⟨j.val / 32, by omega⟩ : Fin 40000) (0 : Fin 1)) (fun a => by
      match a with
      | ⟨0, _⟩ => show j.val / 32 = if (40000 : Nat) = 1 then 0 else j.val / 32; rw [if_neg (by decide)]
      | ⟨1, _⟩ => show 0 = if (1 : Nat) = 1 then 0 else _; rw [if_pos rfl]),
    broadcastInDim_apply _ bcast_S40000_S40000x1_0 _ _ (ix1 (⟨j.val / 32, by omega⟩ : Fin 40000)) (fun a => by
      match a with
      | ⟨0, _⟩ => show j.val / 32 = if (40000 : Nat) = 1 then 0 else j.val / 32; rw [if_neg (by decide)])]
  rfl

/-- The transposed weights, read by channel and feature, are the weights. -/
theorem weights_eq : entriesT (V1 m ρ c main_v9 : S4x64.Idx → EReal)
    = entries (m ((c : Thread nD τ).loc main_arg2) : S64x4.Idx → EReal) := by
  funext o k
  unfold entriesT entries
  rw [stage_v9]
  exact transpose_apply [1, 0] _ transposes_S64x4_S4x64_1_0 (ix2 k o) (ix2 o k) (fun b => by
    match b with
    | ⟨0, _⟩ => rfl
    | ⟨1, _⟩ => rfl)

/-- The bias row is the bias. -/
theorem bias_eq : rowOf (V1 m ρ c main_v10 : S1x64.Idx → EReal)
    = vector (m ((c : Thread nD τ).loc main_arg3) : S64.Idx → EReal) := by
  funext o
  unfold rowOf vector
  rw [stage_v10]
  exact Cert.Layout.shapeCast_row_apply _ _ o

/-- The counts column: each voxel's count as a float, at least one. -/
theorem counts_eq : column (V1 m ρ c main_v14 : S40000x1.Idx → EReal)
    = countsOf (m ((c : Thread nD τ).loc main_arg1) : S40000.Idx → BitVec 32) := by
  funext v
  unfold column countsOf
  rw [stage_v14, Cert.Layout.shapeCast_col_apply, maximumf_apply, broadcastInDim_scalar_apply]
  rfl

/-! ## Between the passes: the statistics folded into a scale row and a shift row -/

/-- The divisor: the count of valid points, re-laid as a scalar, at least one. -/
def validT (s6 : FVec Ideal S1x1 .f32) : FVec Ideal S_ .f32 :=
  maximumf (shapeCast S_ s6 shapeCasts_S1x1_S_) (constant (F := Ideal) S_ .f32 0x3F800000#32)
/-- The mean row. -/
def meanT (s4 : FVec Ideal S1x64 .f32) (s6 : FVec Ideal S1x1 .f32) : FVec Ideal S1x64 .f32 :=
  Host.divf s4 (broadcastInDim S1x64 ![] bcast_S_S1x64 (validT s6))
/-- The scale row. -/
def scaleT (g : FVec Ideal S64 .f32) (s4 s5 : FVec Ideal S1x64 .f32) (s6 : FVec Ideal S1x1 .f32) : FVec Ideal S1x64 .f32 :=
  mulf (shapeCast S1x64 g shapeCasts_S64_S1x64)
    (Host.rsqrt (addf
      (maximumf (subf (Host.divf s5 (broadcastInDim S1x64 ![] bcast_S_S1x64 (validT s6))) (mulf (meanT s4 s6) (meanT s4 s6)))
        (broadcastInDim S1x64 ![] bcast_S_S1x64 (constant (F := Ideal) S_ .f32 0x00000000#32)))
      (broadcastInDim S1x64 ![] bcast_S_S1x64 (constant (F := Ideal) S_ .f32 0x3727C5AC#32))))
/-- The shift row. -/
def shiftT (g be : FVec Ideal S64 .f32) (s4 s5 : FVec Ideal S1x64 .f32) (s6 : FVec Ideal S1x1 .f32) : FVec Ideal S1x64 .f32 :=
  subf (shapeCast S1x64 be shapeCasts_S64_S1x64) (mulf (meanT s4 s6) (scaleT g s4 s5 s6))

theorem stage_v30 : (V3 m ρ c main_v30 : S1x64.Idx → EReal)
    = scaleT (W2 m ρ c (Proc.devRef .tc main_arg4)) (W2 m ρ c (Proc.devRef .tc main_v15_0))
        (W2 m ρ c (Proc.devRef .tc main_v15_1)) (W2 m ρ c (Proc.devRef .tc main_v15_2)) := by
  show StableHlo.after hostOps1 (W2 m ρ c) (Proc.devRef .tc main_v30) = _
  after_results
  all_goals rfl

set_option maxHeartbeats 1600000 in
theorem stage_v33 : (V3 m ρ c main_v33 : S1x64.Idx → EReal)
    = shiftT (W2 m ρ c (Proc.devRef .tc main_arg4)) (W2 m ρ c (Proc.devRef .tc main_arg5)) (W2 m ρ c (Proc.devRef .tc main_v15_0))
        (W2 m ρ c (Proc.devRef .tc main_v15_1)) (W2 m ρ c (Proc.devRef .tc main_v15_2)) := by
  show StableHlo.after hostOps1 (W2 m ρ c) (Proc.devRef .tc main_v33) = _
  after_results_simp
  all_goals rfl

theorem validT_apply (s6 : FVec Ideal S1x1 .f32) (i : S_.Idx) :
    validT s6 i = Cert.VoxelNorm.count (s6 (ix2 (0 : Fin 1) (0 : Fin 1))) := by
  unfold validT Cert.VoxelNorm.count
  rw [maximumf_apply, shapeCast_apply _ _ _ (ix2 (0 : Fin 1) (0 : Fin 1)) (by
    rw [Shape.rowMajor_val_two]
    have h : (S_.rowMajor i).val < 1 := (S_.rowMajor i).isLt
    show 0 * 1 + 0 = _
    omega)]
  rfl

/-- The host's reciprocal square root at an entry. -/
theorem hostRsqrt_apply {s : Shape} (x : FVec Ideal s .f32) (i : s.Idx) : Host.rsqrt x i = Ideal.rsqrt (x i) := rfl

theorem meanT_apply (s4 : FVec Ideal S1x64 .f32) (s6 : FVec Ideal S1x1 .f32) (o : Fin 64) :
    meanT s4 s6 (ix2 (0 : Fin 1) o) = meanOf (rowOf s4) (s6 (ix2 (0 : Fin 1) (0 : Fin 1))) o := by
  unfold meanT meanOf rowOf
  rw [hostDivf_apply, broadcastInDim_scalar_apply, validT_apply]

theorem scaleT_apply (g : FVec Ideal S64 .f32) (s4 s5 : FVec Ideal S1x64 .f32) (s6 : FVec Ideal S1x1 .f32) (o : Fin 64) :
    scaleT g s4 s5 s6 (ix2 (0 : Fin 1) o)
      = scaleK (vector g) (rowOf s4) (rowOf s5) (s6 (ix2 (0 : Fin 1) (0 : Fin 1))) o := by
  unfold scaleT scaleK varK
  rw [mulf_apply, Cert.Layout.shapeCast_row_apply, hostRsqrt_apply, addf_apply, maximumf_apply, subf_apply, mulf_apply,
    hostDivf_apply, meanT_apply, broadcastInDim_scalar_apply, broadcastInDim_scalar_apply, broadcastInDim_scalar_apply,
    validT_apply, constant_apply, constant_apply, Ideal.ofBits_zero_f32]
  rfl

theorem shiftT_apply (g be : FVec Ideal S64 .f32) (s4 s5 : FVec Ideal S1x64 .f32) (s6 : FVec Ideal S1x1 .f32) (o : Fin 64) :
    shiftT g be s4 s5 s6 (ix2 (0 : Fin 1) o)
      = shiftK (vector g) (vector be) (rowOf s4) (rowOf s5) (s6 (ix2 (0 : Fin 1) (0 : Fin 1))) o := by
  unfold shiftT shiftK
  rw [subf_apply, mulf_apply, Cert.Layout.shapeCast_row_apply, meanT_apply, scaleT_apply]
  rfl

/-! ## What the pooling pass finds -/

/-- The pooling pass finds `main_v0` as the statistics pass found it: the statistics pass only reads it, and no operation
    between the passes writes it. -/
theorem kept_main_v0 : V3 m ρ c main_v0 = V1 m ρ c main_v0 :=
  calc V3 m ρ c main_v0
    _ = W2 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0

/-- The pooling pass finds `main_v8` as the statistics pass found it: the statistics pass only reads it, and no operation
    between the passes writes it. -/
theorem kept_main_v8 : V3 m ρ c main_v8 = V1 m ρ c main_v8 :=
  calc V3 m ρ c main_v8
    _ = W2 m ρ c (Proc.devRef .tc main_v8) := StableHlo.after_of_forall_not_mem (b := Proc.devRef .tc main_v8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 1 cfg0.N := W2_arr m ρ c 1
    _ = (dat0 (V1 m ρ) c).A 1 := (dat0 (V1 m ρ) c).arrAt_in 1 rfl _
    _ = V1 m ρ c main_v8 := A_eq0 (V1 m ρ) c 1

/-- The pooling pass finds `main_v9` as the statistics pass found it: the statistics pass only reads it, and no operation
    between the passes writes it. -/
theorem kept_main_v9 : V3 m ρ c main_v9 = V1 m ρ c main_v9 :=
  calc V3 m ρ c main_v9
    _ = W2 m ρ c (Proc.devRef .tc main_v9) := StableHlo.after_of_forall_not_mem (b := Proc.devRef .tc main_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 2 cfg0.N := W2_arr m ρ c 2
    _ = (dat0 (V1 m ρ) c).A 2 := (dat0 (V1 m ρ) c).arrAt_in 2 rfl _
    _ = V1 m ρ c main_v9 := A_eq0 (V1 m ρ) c 2

/-- The pooling pass finds `main_v10` as the statistics pass found it: the statistics pass only reads it, and no operation
    between the passes writes it. -/
theorem kept_main_v10 : V3 m ρ c main_v10 = V1 m ρ c main_v10 :=
  calc V3 m ρ c main_v10
    _ = W2 m ρ c (Proc.devRef .tc main_v10) := StableHlo.after_of_forall_not_mem (b := Proc.devRef .tc main_v10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 3 cfg0.N := W2_arr m ρ c 3
    _ = (dat0 (V1 m ρ) c).A 3 := (dat0 (V1 m ρ) c).arrAt_in 3 rfl _
    _ = V1 m ρ c main_v10 := A_eq0 (V1 m ρ) c 3

/-- The counts column is written before the statistics pass, which does not touch it, and by nothing after. -/
theorem kept_main_v14 : V3 m ρ c main_v14 = V1 m ρ c main_v14 :=
  calc V3 m ρ c main_v14
    _ = W2 m ρ c (Proc.devRef .tc main_v14) := StableHlo.after_of_forall_not_mem (b := Proc.devRef .tc main_v14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V1 m ρ c main_v14 := W2_of_ne m ρ c main_v14 (by decide)

/-- An argument no operation before the pooling pass writes is, between the passes, as launched. -/
theorem W2_main_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
theorem W2_main_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- Between the passes the three statistics arrays hold what the statistics pass's write-backs left. -/
theorem W2_stats4 : W2 m ρ c (Proc.devRef .tc main_v15_0) = (dat0 (V1 m ρ) c).arrAt 4 cfg0.N := W2_arr m ρ c 4
theorem W2_stats5 : W2 m ρ c (Proc.devRef .tc main_v15_1) = (dat0 (V1 m ρ) c).arrAt 5 cfg0.N := W2_arr m ρ c 5
theorem W2_stats6 : W2 m ρ c (Proc.devRef .tc main_v15_2) = (dat0 (V1 m ρ) c).arrAt 6 cfg0.N := W2_arr m ρ c 6

end Cert.KernelIdeal.Host

end
-- ==== Proof.KernelValue.lean ====
/-
  The idealized kernel's result, entry by entry, as the folded arrangement of the specification.

  The result array is what the pooling pass's write-backs leave: `pooled` of the arrays that pass finds.  Those are the
  laid-out arguments and the scale and shift rows; the rows are `scaleK` and `shiftK` of the three statistics the first
  pass leaves, which are the three sums over all points.  Put together, entry `(v, o)` of the result is `outK` of the
  six arguments.
-/
import proofs.«165832_j45784351375623_2_alg».proof.Proof.KernelRun
import proofs.«165832_j45784351375623_2_alg».proof.Proof.PoolValue
import proofs.«165832_j45784351375623_2_alg».proof.Proof.HostStages

set_option maxRecDepth 16384

noncomputable section

namespace Cert.KernelIdeal.Result

open Cert.KernelIdeal Cert.KernelIdeal.Gen Cert.KernelIdeal.Host Cert.VoxelNorm
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The result in the folded arrangement, as contents of the result buffer. -/
def value : S40000x64.Idx → EReal := fun i =>
  outK (pointsOf (m ((c : Thread nD τ).loc main_arg0) : S40000x32x4.Idx → EReal))
    (maskOf (m ((c : Thread nD τ).loc main_arg1) : S40000.Idx → BitVec 32))
    (entries (m ((c : Thread nD τ).loc main_arg2) : S64x4.Idx → EReal))
    (vector (m ((c : Thread nD τ).loc main_arg3) : S64.Idx → EReal))
    (vector (m ((c : Thread nD τ).loc main_arg4) : S64.Idx → EReal))
    (vector (m ((c : Thread nD τ).loc main_arg5) : S64.Idx → EReal))
    (countsOf (m ((c : Thread nD τ).loc main_arg1) : S40000.Idx → BitVec 32))
    ⟨(i 0).val, (i 0).isLt⟩ ⟨(i 1).val, (i 1).isLt⟩

section
variable
  (h4 : (dat0 (V1 m ρ) c).arrAt 4 cfg0.N = fun i => sumH (entries (V1 m ρ c main_v0 : S1280000x4.Idx → EReal))
      (column (V1 m ρ c main_v8 : S1280000x1.Idx → EReal)) (entriesT (V1 m ρ c main_v9 : S4x64.Idx → EReal))
      (rowOf (V1 m ρ c main_v10 : S1x64.Idx → EReal)) ⟨(i 1).val, (i 1).isLt⟩)
  (h5 : (dat0 (V1 m ρ) c).arrAt 5 cfg0.N = fun i => sumSq (entries (V1 m ρ c main_v0 : S1280000x4.Idx → EReal))
      (column (V1 m ρ c main_v8 : S1280000x1.Idx → EReal)) (entriesT (V1 m ρ c main_v9 : S4x64.Idx → EReal))
      (rowOf (V1 m ρ c main_v10 : S1x64.Idx → EReal)) ⟨(i 1).val, (i 1).isLt⟩)
  (h6 : (dat0 (V1 m ρ) c).arrAt 6 cfg0.N = fun _ => sumM (column (V1 m ρ c main_v8 : S1280000x1.Idx → EReal)))
include h4 h5 h6

/-- The scale row the pooling pass finds is `scaleK` of gamma and the three sums. -/
theorem scale_eq : rowOf (V3 m ρ c main_v30 : S1x64.Idx → EReal)
    = scaleK (vector (m ((c : Thread nD τ).loc main_arg4) : S64.Idx → EReal))
        (sumH (pointsOf (m ((c : Thread nD τ).loc main_arg0) : S40000x32x4.Idx → EReal))
          (maskOf (m ((c : Thread nD τ).loc main_arg1) : S40000.Idx → BitVec 32))
          (entries (m ((c : Thread nD τ).loc main_arg2) : S64x4.Idx → EReal))
          (vector (m ((c : Thread nD τ).loc main_arg3) : S64.Idx → EReal)))
        (sumSq (pointsOf (m ((c : Thread nD τ).loc main_arg0) : S40000x32x4.Idx → EReal))
          (maskOf (m ((c : Thread nD τ).loc main_arg1) : S40000.Idx → BitVec 32))
          (entries (m ((c : Thread nD τ).loc main_arg2) : S64x4.Idx → EReal))
          (vector (m ((c : Thread nD τ).loc main_arg3) : S64.Idx → EReal)))
        (sumM (maskOf (m ((c : Thread nD τ).loc main_arg1) : S40000.Idx → BitVec 32))) := by
  funext o
  unfold rowOf
  rw [stage_v30, scaleT_apply, W2_main_arg4, W2_stats4, W2_stats5, W2_stats6, h4, h5, h6,
    points_eq, mask_eq, weights_eq, bias_eq]
  rfl

/-- The shift row the pooling pass finds is `shiftK` of gamma, beta and the three sums. -/
theorem shift_eq : rowOf (V3 m ρ c main_v33 : S1x64.Idx → EReal)
    = shiftK (vector (m ((c : Thread nD τ).loc main_arg4) : S64.Idx → EReal))
        (vector (m ((c : Thread nD τ).loc main_arg5) : S64.Idx → EReal))
        (sumH (pointsOf (m ((c : Thread nD τ).loc main_arg0) : S40000x32x4.Idx → EReal))
          (maskOf (m ((c : Thread nD τ).loc main_arg1) : S40000.Idx → BitVec 32))
          (entries (m ((c : Thread nD τ).loc main_arg2) : S64x4.Idx → EReal))
          (vector (m ((c : Thread nD τ).loc main_arg3) : S64.Idx → EReal)))
        (sumSq (pointsOf (m ((c : Thread nD τ).loc main_arg0) : S40000x32x4.Idx → EReal))
          (maskOf (m ((c : Thread nD τ).loc main_arg1) : S40000.Idx → BitVec 32))
          (entries (m ((c : Thread nD τ).loc main_arg2) : S64x4.Idx → EReal))
          (vector (m ((c : Thread nD τ).loc main_arg3) : S64.Idx → EReal)))
        (sumM (maskOf (m ((c : Thread nD τ).loc main_arg1) : S40000.Idx → BitVec 32))) := by
  funext o
  unfold rowOf
  rw [stage_v33, shiftT_apply, W2_main_arg4, W2_main_arg5, W2_stats4, W2_stats5, W2_stats6, h4, h5, h6,
    points_eq, mask_eq, weights_eq, bias_eq]
  rfl

/-- THE RESULT: the last contents of the result buffer are the folded arrangement of the six arguments. -/
theorem result_eq : W4 m ρ c (Proc.devRef .tc main_v34) = value m c := by
  rw [Cert.KernelIdeal.RunValue.W4_result, Cert.KernelIdeal.Pool.final7]
  funext i
  unfold Cert.KernelIdeal.Pool.G value outK
  rw [kept_main_v0, kept_main_v8, kept_main_v9, kept_main_v10, kept_main_v14,
    scale_eq m ρ c h4 h5 h6, shift_eq m ρ c h4 h5 h6, points_eq, mask_eq, weights_eq, bias_eq, counts_eq]

end

end Cert.KernelIdeal.Result

end
-- ==== Proof.StatsPieces.lean ====
/-
  The statistics pass, one grid point at a time.

  The first kernel visits 100 grid points; at point `t` it holds rows `12800 t … 12800 t + 12799` of the points and of
  the mask column, and the whole transposed weights and bias row.  At the first point it stores zero rows in its three
  accumulators; at every point it adds, to what the accumulators hold, the block's column sums of the masked linear map
  `hm`, of `hm²`, and of the mask.

  This module reads one point.  First, what a point's stores leave in each accumulator's buffer, in each of the two
  cases (first point: over the zero rows just stored; later points: over the carried contents), as the kernel's named
  values.  Second, those values at an entry: the old entry plus a sum over the block's 12800 rows.  Third, a block's
  entry as an entry of the whole array: row `r` of the block of point `t` is row `12800 t + r`.
-/
import proofs.«165832_j45784351375623_2_alg».proof.Proof.Gen.KernelIdeal.Frame
import proofs.«165832_j45784351375623_2_alg».proof.Proof.BlockBody
import Idealize.ShloMosaic.Lib.Pipeline.Value
import Idealize.ShloMosaic.Lib.Tactic

noncomputable section

namespace Cert.KernelIdeal.Stats

open Idealize.ShloMosaic Idealize.ShloMosaic.TcCoe Idealize.SL.Sem
open Idealize.ShloMosaic.Pipeline (Dat)
open Cert.KernelIdeal Cert.KernelIdeal.Gen
open Idealize.ShloMosaic.ValueIdx

/-- The zero offsets of a rank-2 access, as the constant function. -/
theorem hz : (![0, 0] : Fin 2 → Nat) = fun _ => 0 := funext fun a => by fin_cases a <;> rfl

/-! ## What a point's stores leave, as the kernel's named values

Each accumulator's buffer is covered by the point's last store to it, whose payload reads the input buffers whole and,
for the old contents, either the carried buffer (a later point) or the zero row stored just before (the first point). -/

section Pieces
variable {F : FTy → Type} [FloatOps F]

theorem out_B_4 (c : Dev nD) (i : grid0.Coords) (a1 : Memref sig .tc .vmem S12800x4 .f32) (h1 : a1.IsWhole)
    (a2 : Memref sig .tc .vmem S12800x1 .f32) (h2 : a2.IsWhole) (a3 : Memref sig .tc .vmem S4x64 .f32) (h3 : a3.IsWhole)
    (a4 : Memref sig .tc .vmem S1x64 .f32) (h4 : a4.IsWhole) (a5 : Memref sig .tc .vmem S1x64 .f32) (h5 : a5.IsWhole)
    (a6 : Memref sig .tc .vmem S1x64 .f32) (h6 : a6.IsWhole) (a7 : Memref sig .tc .vmem S1x1 .f32) (h7 : a7.IsWhole)
    (hc : ¬cond0_0 i) (x0 : Vec F S12800x4 .f32) (x1 : Vec F S12800x1 .f32) (x2 : Vec F S4x64 .f32) (x3 : Vec F S1x64 .f32)
    (xo4 xo5 : Vec F S1x64 .f32) (xo6 : Vec F S1x1 .f32) :
    out0_B_4 c i a1 h1 a2 h2 a3 h3 a4 h4 a5 h5 a6 h6 a7 h7 hc x0 x1 x2 x3 xo4 xo5 xo6 = k0_pay7 x0 x2 x3 x1 xo4 := by
  unfold out0_B_4
  rw [View.read_writes_eq_canon _ _ _ (cover0_B_4 c i a1 h1 a2 h2 a3 h3 a4 h4 a5 h5 a6 h6 a7 h7 hc x0 x1 x2 x3 xo4 xo5 xo6)]
  unfold kernelRun0_B
  dsimp only
  rw [View.canon_unit_zero hz]
  simp only [View.readAt_eq_ld, h1.read_unread, h2.read_unread, h3.read_unread, h4.read_unread, h5.read_unread,
    h6.read_unread, h7.read_unread, View.ld_unit_zero (S := S12800x4) hz, View.ld_unit_zero (S := S12800x1) hz,
    View.ld_unit_zero (S := S4x64) hz, View.ld_unit_zero (S := S1x64) hz, View.ld_unit_zero (S := S1x1) hz]

theorem out_B_5 (c : Dev nD) (i : grid0.Coords) (a1 : Memref sig .tc .vmem S12800x4 .f32) (h1 : a1.IsWhole)
    (a2 : Memref sig .tc .vmem S12800x1 .f32) (h2 : a2.IsWhole) (a3 : Memref sig .tc .vmem S4x64 .f32) (h3 : a3.IsWhole)
    (a4 : Memref sig .tc .vmem S1x64 .f32) (h4 : a4.IsWhole) (a5 : Memref sig .tc .vmem S1x64 .f32) (h5 : a5.IsWhole)
    (a6 : Memref sig .tc .vmem S1x64 .f32) (h6 : a6.IsWhole) (a7 : Memref sig .tc .vmem S1x1 .f32) (h7 : a7.IsWhole)
    (hc : ¬cond0_0 i) (x0 : Vec F S12800x4 .f32) (x1 : Vec F S12800x1 .f32) (x2 : Vec F S4x64 .f32) (x3 : Vec F S1x64 .f32)
    (xo4 xo5 : Vec F S1x64 .f32) (xo6 : Vec F S1x1 .f32) :
    out0_B_5 c i a1 h1 a2 h2 a3 h3 a4 h4 a5 h5 a6 h6 a7 h7 hc x0 x1 x2 x3 xo4 xo5 xo6 = k0_pay8 x0 x2 x3 x1 xo5 := by
  unfold out0_B_5
  rw [View.read_writes_eq_canon _ _ _ (cover0_B_5 c i a1 h1 a2 h2 a3 h3 a4 h4 a5 h5 a6 h6 a7 h7 hc x0 x1 x2 x3 xo4 xo5 xo6)]
  unfold kernelRun0_B
  dsimp only
  rw [View.canon_unit_zero hz]
  simp only [View.readAt_eq_ld, h1.read_unread, h2.read_unread, h3.read_unread, h4.read_unread, h5.read_unread,
    h6.read_unread, h7.read_unread, View.ld_unit_zero (S := S12800x4) hz, View.ld_unit_zero (S := S12800x1) hz,
    View.ld_unit_zero (S := S4x64) hz, View.ld_unit_zero (S := S1x64) hz, View.ld_unit_zero (S := S1x1) hz]

theorem out_B_6 (c : Dev nD) (i : grid0.Coords) (a1 : Memref sig .tc .vmem S12800x4 .f32) (h1 : a1.IsWhole)
    (a2 : Memref sig .tc .vmem S12800x1 .f32) (h2 : a2.IsWhole) (a3 : Memref sig .tc .vmem S4x64 .f32) (h3 : a3.IsWhole)
    (a4 : Memref sig .tc .vmem S1x64 .f32) (h4 : a4.IsWhole) (a5 : Memref sig .tc .vmem S1x64 .f32) (h5 : a5.IsWhole)
    (a6 : Memref sig .tc .vmem S1x64 .f32) (h6 : a6.IsWhole) (a7 : Memref sig .tc .vmem S1x1 .f32) (h7 : a7.IsWhole)
    (hc : ¬cond0_0 i) (x0 : Vec F S12800x4 .f32) (x1 : Vec F S12800x1 .f32) (x2 : Vec F S4x64 .f32) (x3 : Vec F S1x64 .f32)
    (xo4 xo5 : Vec F S1x64 .f32) (xo6 : Vec F S1x1 .f32) :
    out0_B_6 c i a1 h1 a2 h2 a3 h3 a4 h4 a5 h5 a6 h6 a7 h7 hc x0 x1 x2 x3 xo4 xo5 xo6 = k0_pay1 (k0_pay5 x1) (k0_pay9 xo6) := by
  unfold out0_B_6
  rw [View.read_writes_eq_canon _ _ _ (cover0_B_6 c i a1 h1 a2 h2 a3 h3 a4 h4 a5 h5 a6 h6 a7 h7 hc x0 x1 x2 x3 xo4 xo5 xo6)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, View.ld_unit_zero (S := S12800x4) hz, View.ld_unit_zero (S := S12800x1) hz,
    View.ld_unit_zero (S := S4x64) hz, View.ld_unit_zero (S := S1x64) hz, View.ld_unit_zero (S := S1x1) hz]

theorem out_A_4 (c : Dev nD) (i : grid0.Coords) (a1 : Memref sig .tc .vmem S12800x4 .f32) (h1 : a1.IsWhole)
    (a2 : Memref sig .tc .vmem S12800x1 .f32) (h2 : a2.IsWhole) (a3 : Memref sig .tc .vmem S4x64 .f32) (h3 : a3.IsWhole)
    (a4 : Memref sig .tc .vmem S1x64 .f32) (h4 : a4.IsWhole) (a5 : Memref sig .tc .vmem S1x64 .f32) (h5 : a5.IsWhole)
    (a6 : Memref sig .tc .vmem S1x64 .f32) (h6 : a6.IsWhole) (a7 : Memref sig .tc .vmem S1x1 .f32) (h7 : a7.IsWhole)
    (hc : cond0_0 i) (x0 : Vec F S12800x4 .f32) (x1 : Vec F S12800x1 .f32) (x2 : Vec F S4x64 .f32) (x3 : Vec F S1x64 .f32) :
    out0_A_4 c i a1 h1 a2 h2 a3 h3 a4 h4 a5 h5 a6 h6 a7 h7 hc x0 x1 x2 x3 = k0_pay7 x0 x2 x3 x1 k0_pay2 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h7.read_unread, View.ld_unit_zero (S := S12800x4) hz, View.ld_unit_zero (S := S12800x1) hz,
    View.ld_unit_zero (S := S4x64) hz, View.ld_unit_zero (S := S1x64) hz, View.ld_unit_zero (S := S1x1) hz]

theorem out_A_5 (c : Dev nD) (i : grid0.Coords) (a1 : Memref sig .tc .vmem S12800x4 .f32) (h1 : a1.IsWhole)
    (a2 : Memref sig .tc .vmem S12800x1 .f32) (h2 : a2.IsWhole) (a3 : Memref sig .tc .vmem S4x64 .f32) (h3 : a3.IsWhole)
    (a4 : Memref sig .tc .vmem S1x64 .f32) (h4 : a4.IsWhole) (a5 : Memref sig .tc .vmem S1x64 .f32) (h5 : a5.IsWhole)
    (a6 : Memref sig .tc .vmem S1x64 .f32) (h6 : a6.IsWhole) (a7 : Memref sig .tc .vmem S1x1 .f32) (h7 : a7.IsWhole)
    (hc : cond0_0 i) (x0 : Vec F S12800x4 .f32) (x1 : Vec F S12800x1 .f32) (x2 : Vec F S4x64 .f32) (x3 : Vec F S1x64 .f32) :
    out0_A_5 c i a1 h1 a2 h2 a3 h3 a4 h4 a5 h5 a6 h6 a7 h7 hc x0 x1 x2 x3 = k0_pay8 x0 x2 x3 x1 k0_pay3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h7.read_unread, View.ld_unit_zero (S := S12800x4) hz, View.ld_unit_zero (S := S12800x1) hz,
    View.ld_unit_zero (S := S4x64) hz, View.ld_unit_zero (S := S1x64) hz, View.ld_unit_zero (S := S1x1) hz]

theorem out_A_6 (c : Dev nD) (i : grid0.Coords) (a1 : Memref sig .tc .vmem S12800x4 .f32) (h1 : a1.IsWhole)
    (a2 : Memref sig .tc .vmem S12800x1 .f32) (h2 : a2.IsWhole) (a3 : Memref sig .tc .vmem S4x64 .f32) (h3 : a3.IsWhole)
    (a4 : Memref sig .tc .vmem S1x64 .f32) (h4 : a4.IsWhole) (a5 : Memref sig .tc .vmem S1x64 .f32) (h5 : a5.IsWhole)
    (a6 : Memref sig .tc .vmem S1x64 .f32) (h6 : a6.IsWhole) (a7 : Memref sig .tc .vmem S1x1 .f32) (h7 : a7.IsWhole)
    (hc : cond0_0 i) (x0 : Vec F S12800x4 .f32) (x1 : Vec F S12800x1 .f32) (x2 : Vec F S4x64 .f32) (x3 : Vec F S1x64 .f32) :
    out0_A_6 c i a1 h1 a2 h2 a3 h3 a4 h4 a5 h5 a6 h6 a7 h7 hc x0 x1 x2 x3 = k0_pay1 (k0_pay5 x1) (k0_pay9 k0_pay4) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, h7.read_unread, View.ld_unit_zero (S := S12800x4) hz, View.ld_unit_zero (S := S12800x1) hz,
    View.ld_unit_zero (S := S4x64) hz, View.ld_unit_zero (S := S1x64) hz, View.ld_unit_zero (S := S1x1) hz]

end Pieces

open Cert.KernelIdeal.Body

/-! ## The payloads at an entry -/

/-- Entry `(r, o)` of a block's masked linear map. -/
def hmB (x : Vec Ideal S12800x4 .f32) (w : Vec Ideal S4x64 .f32) (b : Vec Ideal S1x64 .f32)
    (mk : Vec Ideal S12800x1 .f32) (r : Fin 12800) (o : Fin 64) : EReal :=
  ((∑ k : Fin 4, x (ix2 r k) * w (ix2 k o)) + b (ix2 (0 : Fin 1) o)) * mk (ix2 r (0 : Fin 1))

/-- The sum over the 12800 rows of a `[12800, 64]` array, re-laid as a row: entry `(0, o)` is the column's sum. -/
theorem colsum_apply (v : FVec Ideal S12800x64 .f32) (hr : S12800x64.Reduces [0] S64) (hs : S64.ShapeCasts S1x64)
    (hacc : (0x00000000#32 : BitVec 32) = 0x00000000#32) (o : Fin 64) :
    shapeCast S1x64 (multiReduction .add [0] S64 v 0x00000000#32 hr (.inl rfl) hacc) hs
        (ix2 (0 : Fin 1) o)
      = ∑ r : Fin 12800, v (ix2 r o) := by
  refine (Cert.Layout.shapeCast_row_apply _ _ o).trans ?_
  refine (Ideal.multiReduction_add_single v 0x00000000#32 hr (.inl rfl) hacc (ix1 o)).trans ?_
  refine Finset.sum_congr rfl fun r _ => congrArg v ?_
  funext a
  match a with
  | ⟨0, _⟩ => rfl
  | ⟨1, _⟩ => rfl

/-- The sum over the 12800 rows of a `[12800, 1]` column, re-laid as a `[1, 1]` array. -/
theorem colsum1_apply (v : FVec Ideal S12800x1 .f32) (hr : S12800x1.Reduces [0] S1) (hs : S1.ShapeCasts S1x1)
    (hacc : (0x00000000#32 : BitVec 32) = 0x00000000#32) :
    shapeCast S1x1 (multiReduction .add [0] S1 v 0x00000000#32 hr (.inl rfl) hacc) hs
        (ix2 (0 : Fin 1) (0 : Fin 1))
      = ∑ r : Fin 12800, v (ix2 r (0 : Fin 1)) := by
  refine (Cert.Layout.shapeCast_row_apply _ _ (0 : Fin 1)).trans ?_
  refine (Ideal.multiReduction_add_single v 0x00000000#32 hr (.inl rfl) hacc (ix1 (0 : Fin 1))).trans ?_
  refine Finset.sum_congr rfl fun r _ => congrArg v ?_
  funext a
  match a with
  | ⟨0, _⟩ => rfl
  | ⟨1, _⟩ => rfl

/-- The first accumulator's update at `(0, o)`: the old entry plus the block's column sum of the masked linear map. -/
theorem pay7_apply (x : Vec Ideal S12800x4 .f32) (w : Vec Ideal S4x64 .f32) (b : Vec Ideal S1x64 .f32)
    (mk : Vec Ideal S12800x1 .f32) (old : Vec Ideal S1x64 .f32) (o : Fin 64) :
    k0_pay7 x w b mk old (ix2 (0 : Fin 1) o) = old (ix2 (0 : Fin 1) o) + ∑ r : Fin 12800, hmB x w b mk r o := by
  unfold k0_pay7
  simp only [shapeCast_self]
  rw [addf_apply, colsum_apply]
  refine congrArg (old (ix2 (0 : Fin 1) o) + ·) (Finset.sum_congr rfl fun r _ => ?_)
  exact masked_lin_apply x w b mk r o

/-- The second accumulator's update at `(0, o)`: the old entry plus the block's column sum of the squares. -/
theorem pay8_apply (x : Vec Ideal S12800x4 .f32) (w : Vec Ideal S4x64 .f32) (b : Vec Ideal S1x64 .f32)
    (mk : Vec Ideal S12800x1 .f32) (old : Vec Ideal S1x64 .f32) (o : Fin 64) :
    k0_pay8 x w b mk old (ix2 (0 : Fin 1) o)
      = old (ix2 (0 : Fin 1) o) + ∑ r : Fin 12800, hmB x w b mk r o * hmB x w b mk r o := by
  unfold k0_pay8
  simp only [shapeCast_self]
  rw [addf_apply, colsum_apply]
  refine congrArg (old (ix2 (0 : Fin 1) o) + ·) (Finset.sum_congr rfl fun r _ => ?_)
  rw [mulf_apply, masked_lin_apply]
  rfl

/-- The third accumulator's update: the old entry plus the sum of the block's mask column. -/
theorem pay1_apply (mk : Vec Ideal S12800x1 .f32) (old : Vec Ideal S1x1 .f32) :
    k0_pay1 (k0_pay5 mk) (k0_pay9 old) (ix2 (0 : Fin 1) (0 : Fin 1))
      = old (ix2 (0 : Fin 1) (0 : Fin 1)) + ∑ r : Fin 12800, mk (ix2 r (0 : Fin 1)) := by
  unfold k0_pay1 k0_pay5 k0_pay9
  simp only [shapeCast_self]
  rw [addf_apply, colsum1_apply]

/-- The rows the reset stores are zero. -/
theorem pay2_apply (o : Fin 64) : k0_pay2 (F := Ideal) (ix2 (0 : Fin 1) o) = 0 := by
  unfold k0_pay2
  show (FloatOps.ofBits (F := Ideal) .f32 0x00000000#32 : EReal) = 0
  exact Ideal.ofBits_zero_f32
theorem pay3_apply (o : Fin 64) : k0_pay3 (F := Ideal) (ix2 (0 : Fin 1) o) = 0 := by
  unfold k0_pay3
  show (FloatOps.ofBits (F := Ideal) .f32 0x00000000#32 : EReal) = 0
  exact Ideal.ofBits_zero_f32
theorem pay4_apply : k0_pay4 (F := Ideal) (ix2 (0 : Fin 1) (0 : Fin 1)) = 0 := by
  unfold k0_pay4
  show (FloatOps.ofBits (F := Ideal) .f32 0x00000000#32 : EReal) = 0
  exact Ideal.ofBits_zero_f32

/-! ## The windows' blocks, read at an entry -/

section Blocks
variable (V : (c : Dev nD) → (b : Ref sig .tc) → Buf (Elt Ideal) ((c : Thread nD τ).loc b))

/-- The block index of each input window at a point: the points and the mask advance one block of rows per point, the
    weights and the bias stay. -/
theorem index_facts : ∀ t : Fin cfg0.N,
    win0_0.index t (0 : Fin 2) = t.val ∧ win0_0.index t (1 : Fin 2) = 0 ∧ win0_1.index t (0 : Fin 2) = t.val ∧ win0_1.index t (1 : Fin 2) = 0
      ∧ win0_2.index t (0 : Fin 2) = 0 ∧ win0_2.index t (1 : Fin 2) = 0 ∧ win0_3.index t (0 : Fin 2) = 0 ∧ win0_3.index t (1 : Fin 2) = 0 :=
  (by decide +kernel : ∀ t : Fin grid0.N,
    win0_0.index t (0 : Fin 2) = t.val ∧ win0_0.index t (1 : Fin 2) = 0 ∧ win0_1.index t (0 : Fin 2) = t.val ∧ win0_1.index t (1 : Fin 2) = 0
      ∧ win0_2.index t (0 : Fin 2) = 0 ∧ win0_2.index t (1 : Fin 2) = 0 ∧ win0_3.index t (0 : Fin 2) = 0 ∧ win0_3.index t (1 : Fin 2) = 0)

/-- Row `r` of the block of point `t`, as a row of the flattened arrays. -/
def grow (t : Fin cfg0.N) (r : Fin 12800) : Fin 1280000 :=
  ⟨12800 * t.val + r.val, by have := lt_of_lt_of_eq t.isLt (show cfg0.N = 100 from N_0); have := r.isLt; omega⟩

/-- The points' block at point `t`: rows `12800 t … 12800 t + 12799` of the array. -/
theorem blk0_apply (c : Dev nD) (t : Fin cfg0.N) (r : Fin 12800) (k : Fin 4) :
    (iblk0 V c 0 t : Vec Ideal S12800x4 .f32) (ix2 r k) = (V c main_v0 : S1280000x4.Idx → EReal) (ix2 (grow t r) k) := by
  obtain ⟨e0, e1, -⟩ := index_facts t
  unfold iblk0
  rw [View.read_apply]
  show V c main_v0 _ = V c main_v0 _
  refine congrArg (V c main_v0) ?_
  funext a
  apply Fin.ext
  match a with
  | ⟨0, _⟩ => show win0_0.index t (0 : Fin 2) * 12800 + 1 * r.val = 12800 * t.val + r.val; rw [e0]; omega
  | ⟨1, _⟩ => show win0_0.index t (1 : Fin 2) * 4 + 1 * k.val = k.val; rw [e1]; omega

/-- The mask's block at point `t`: the same rows of the mask column. -/
theorem blk1_apply (c : Dev nD) (t : Fin cfg0.N) (r : Fin 12800) :
    (iblk0 V c 1 t : Vec Ideal S12800x1 .f32) (ix2 r (0 : Fin 1)) = (V c main_v8 : S1280000x1.Idx → EReal) (ix2 (grow t r) (0 : Fin 1)) := by
  obtain ⟨-, -, e0, e1, -⟩ := index_facts t
  unfold iblk0
  rw [View.read_apply]
  show V c main_v8 _ = V c main_v8 _
  refine congrArg (V c main_v8) ?_
  funext a
  apply Fin.ext
  match a with
  | ⟨0, _⟩ => show win0_1.index t (0 : Fin 2) * 12800 + 1 * r.val = 12800 * t.val + r.val; rw [e0]; omega
  | ⟨1, _⟩ => show win0_1.index t (1 : Fin 2) * 1 + 1 * 0 = 0; rw [e1]

/-- The weights' block at every point is the whole array. -/
theorem blk2_apply (c : Dev nD) (t : Fin cfg0.N) (k : Fin 4) (o : Fin 64) :
    (iblk0 V c 2 t : Vec Ideal S4x64 .f32) (ix2 k o) = (V c main_v9 : S4x64.Idx → EReal) (ix2 k o) := by
  obtain ⟨-, -, -, -, e0, e1, -⟩ := index_facts t
  unfold iblk0
  rw [View.read_apply]
  show V c main_v9 _ = V c main_v9 _
  refine congrArg (V c main_v9) ?_
  funext a
  apply Fin.ext
  match a with
  | ⟨0, _⟩ => show win0_2.index t (0 : Fin 2) * 4 + 1 * k.val = k.val; rw [e0]; omega
  | ⟨1, _⟩ => show win0_2.index t (1 : Fin 2) * 64 + 1 * o.val = o.val; rw [e1]; omega

/-- The bias's block at every point is the whole row. -/
theorem blk3_apply (c : Dev nD) (t : Fin cfg0.N) (o : Fin 64) :
    (iblk0 V c 3 t : Vec Ideal S1x64 .f32) (ix2 (0 : Fin 1) o) = (V c main_v10 : S1x64.Idx → EReal) (ix2 (0 : Fin 1) o) := by
  obtain ⟨-, -, -, -, -, -, e0, e1⟩ := index_facts t
  unfold iblk0
  rw [View.read_apply]
  show V c main_v10 _ = V c main_v10 _
  refine congrArg (V c main_v10) ?_
  funext a
  apply Fin.ext
  match a with
  | ⟨0, _⟩ => show win0_3.index t (0 : Fin 2) * 1 + 1 * 0 = 0; rw [e0]
  | ⟨1, _⟩ => show win0_3.index t (1 : Fin 2) * 64 + 1 * o.val = o.val; rw [e1]; omega

end Blocks

end Cert.KernelIdeal.Stats

end
-- ==== Proof.StatsValue.lean ====
/-
  What the statistics pass leaves in its three result arrays: the three sums of the specification.

  The pass visits 100 grid points; point `t` holds rows `12800 t … 12800 t + 12799` of the 1280000 flattened points.
  Its three accumulators are reset at the first point, added to at every point, and written back after the last.  With
  `hm j o = (∑ₖ X j k · Wt o k + B o) · Mk j`, after point `n` the first accumulator holds at channel `o` the sum of
  `hm j o` over the rows `j < 12800 (n + 1)`, the second the sum of `hm j o²` over the same rows, the third the sum
  of `Mk j`: by induction on the point, each step adding one block's rows.  After the last point these are the sums over
  all rows, and the one write-back puts each accumulator's one block, which is the whole result array, in place.

  Sums over an initial segment of the rows are taken over the naturals, of the function extended by zero past the last
  row, so that a step is `Finset.sum_range_add`.  Addition of extended reals is commutative and associative with
  neutral zero without side conditions, and nothing else about it is used.
-/
import proofs.«165832_j45784351375623_2_alg».proof.Proof.StatsPieces
import proofs.«165832_j45784351375623_2_alg».proof.Proof.Spec

noncomputable section

namespace Cert.KernelIdeal.Stats

open Idealize.ShloMosaic Idealize.ShloMosaic.TcCoe Idealize.SL.Sem
open Idealize.ShloMosaic.Pipeline (Dat)
open Cert.KernelIdeal Cert.KernelIdeal.Gen Cert.VoxelNorm
open Idealize.ShloMosaic.ValueIdx

/-! ## Sums over an initial segment of the rows -/

/-- A function of the rows, extended by zero past the last row. -/
def extz (f : Fin 1280000 → EReal) (j : ℕ) : EReal := if h : j < 1280000 then f ⟨j, h⟩ else 0

/-- The sum of `f` over the rows of the first `n` blocks. -/
def psum (f : Fin 1280000 → EReal) (n : ℕ) : EReal := ∑ j ∈ Finset.range (12800 * n), extz f j

/-- No blocks: the empty sum. -/
theorem psum_zero (f : Fin 1280000 → EReal) : psum f 0 = 0 := by
  unfold psum
  rw [Nat.mul_zero, Finset.range_zero, Finset.sum_empty]

/-- One more block: its 12800 rows are added. -/
theorem psum_succ (f : Fin 1280000 → EReal) (t : Fin cfg0.N) :
    psum f (t.val + 1) = psum f t.val + ∑ r : Fin 12800, f (grow t r) := by
  have e : ∀ r : Fin 12800, extz f (12800 * t.val + r.val) = f (grow t r) := fun r => by
    unfold extz
    exact dif_pos (grow t r).isLt
  unfold psum
  rw [Nat.mul_succ, Finset.sum_range_add, Finset.sum_range fun x => extz f (12800 * t.val + x)]
  simp only [e]

/-- All 100 blocks: every row. -/
theorem psum_all (f : Fin 1280000 → EReal) : psum f 100 = ∑ j : Fin 1280000, f j := by
  unfold psum
  rw [show 12800 * 100 = 1280000 from by norm_num, Finset.sum_range]
  exact Fintype.sum_congr _ _ fun j => by unfold extz; exact dif_pos j.isLt

section Run
variable (V : (c : Dev nD) → (b : Ref sig .tc) → Buf (Elt Ideal) ((c : Thread nD τ).loc b))

/-! ## The arrays the pass reads, by coordinates -/

/-- The flattened points, one row per point. -/
abbrev Xs (c : Dev nD) : Fin 1280000 → Fin 4 → EReal := entries (V c main_v0 : S1280000x4.Idx → EReal)
/-- The mask column. -/
abbrev Ms (c : Dev nD) : Fin 1280000 → EReal := column (V c main_v8 : S1280000x1.Idx → EReal)
/-- The weights, by channel and feature (the array holds them transposed). -/
abbrev Ws (c : Dev nD) : Fin 64 → Fin 4 → EReal := entriesT (V c main_v9 : S4x64.Idx → EReal)
/-- The bias row. -/
abbrev Bs (c : Dev nD) : Fin 64 → EReal := rowOf (V c main_v10 : S1x64.Idx → EReal)

/-- The masked linear map of a block row, from the block's entries. -/
theorem hmB_eq (x : Vec Ideal S12800x4 .f32) (w : Vec Ideal S4x64 .f32) (b : Vec Ideal S1x64 .f32)
    (mk : Vec Ideal S12800x1 .f32) (r : Fin 12800) (o : Fin 64) (x' w' : Fin 4 → EReal) (b' m' : EReal)
    (hx : ∀ k, x (ix2 r k) = x' k) (hw : ∀ k, w (ix2 k o) = w' k) (hb : b (ix2 (0 : Fin 1) o) = b')
    (hm : mk (ix2 r (0 : Fin 1)) = m') : hmB x w b mk r o = ((∑ k : Fin 4, x' k * w' k) + b') * m' := by
  unfold hmB
  simp only [hx, hw, hb, hm]

/-- The masked linear map of row `r` of the block of point `t` is `hm` of row `12800 t + r`. -/
theorem hmB_blk (c : Dev nD) (t : Fin cfg0.N) (r : Fin 12800) (o : Fin 64) :
    hmB (iblk0 V c 0 t) (iblk0 V c 2 t) (iblk0 V c 3 t) (iblk0 V c 1 t) r o = hm (Xs V c) (Ms V c) (Ws V c) (Bs V c) (grow t r) o :=
  hmB_eq (iblk0 V c 0 t) (iblk0 V c 2 t) (iblk0 V c 3 t) (iblk0 V c 1 t) r o (fun k => Xs V c (grow t r) k) (fun k => Ws V c o k) (Bs V c o) (Ms V c (grow t r))
    (fun k => blk0_apply V c t r k) (fun k => blk2_apply V c t k o) (blk3_apply V c t o) (blk1_apply V c t r)

/-- The same for the square. -/
theorem hmB_blk_sq (c : Dev nD) (t : Fin cfg0.N) (r : Fin 12800) (o : Fin 64) :
    hmB (iblk0 V c 0 t) (iblk0 V c 2 t) (iblk0 V c 3 t) (iblk0 V c 1 t) r o * hmB (iblk0 V c 0 t) (iblk0 V c 2 t) (iblk0 V c 3 t) (iblk0 V c 1 t) r o
      = hm (Xs V c) (Ms V c) (Ws V c) (Bs V c) (grow t r) o * hm (Xs V c) (Ms V c) (Ws V c) (Bs V c) (grow t r) o := by
  rw [hmB_blk V c t r o]

/-- The third accumulator's update, from the block's mask entries. -/
theorem pay1_eq (mk : Vec Ideal S12800x1 .f32) (old : Vec Ideal S1x1 .f32) (m' : Fin 12800 → EReal)
    (hm : ∀ r, mk (ix2 r (0 : Fin 1)) = m' r) :
    k0_pay1 (k0_pay5 mk) (k0_pay9 old) (ix2 (0 : Fin 1) (0 : Fin 1)) = old (ix2 (0 : Fin 1) (0 : Fin 1)) + ∑ r : Fin 12800, m' r := by
  rw [pay1_apply]
  simp only [hm]

/-! ## One point's step, at an entry -/

/-- The first point leaves the block's column sums of `hm` over zero. -/
theorem stepA4 (c : Dev nD) (t : Fin cfg0.N) (h0 : t.val % 100 = 0) (o : Fin 64) :
    (outsAt0 V c t.val t.isLt).1 (ix2 (0 : Fin 1) o) = ∑ r : Fin 12800, hm (Xs V c) (Ms V c) (Ws V c) (Bs V c) (grow t r) o := by
  rw [outsAt0_A V c t h0]
  refine (congrFun (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)) (ix2 (0 : Fin 1) o)).trans ?_
  refine (pay7_apply (iblk0 V c 0 t) (iblk0 V c 2 t) (iblk0 V c 3 t) (iblk0 V c 1 t) (k0_pay2 (F := Ideal)) o).trans ?_
  rw [pay2_apply, zero_add]
  exact Fintype.sum_congr _ _ fun r => hmB_blk V c t r o

/-- A later point adds the block's column sums of `hm` to what the point before left. -/
theorem stepB4 (c : Dev nD) (t : Fin cfg0.N) (h0 : ¬t.val % 100 = 0) (o : Fin 64) :
    (outsAt0 V c t.val t.isLt).1 (ix2 (0 : Fin 1) o)
      = (outsAt0 V c (t.val - 1) (Nat.lt_of_le_of_lt (Nat.sub_le _ _) t.isLt)).1 (ix2 (0 : Fin 1) o) + ∑ r : Fin 12800, hm (Xs V c) (Ms V c) (Ws V c) (Bs V c) (grow t r) o := by
  rw [outsAt0_B V c t h0]
  refine (congrFun (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) o)).trans ?_
  refine (pay7_apply (iblk0 V c 0 t) (iblk0 V c 2 t) (iblk0 V c 3 t) (iblk0 V c 1 t) (outsAt0 V c (t.val - 1) (Nat.lt_of_le_of_lt (Nat.sub_le _ _) t.isLt)).1 o).trans ?_
  rw [Fintype.sum_congr _ _ fun r => hmB_blk V c t r o]

/-- The first point leaves the block's column sums of `hm²` over zero. -/
theorem stepA5 (c : Dev nD) (t : Fin cfg0.N) (h0 : t.val % 100 = 0) (o : Fin 64) :
    (outsAt0 V c t.val t.isLt).2.1 (ix2 (0 : Fin 1) o)
      = ∑ r : Fin 12800, hm (Xs V c) (Ms V c) (Ws V c) (Bs V c) (grow t r) o * hm (Xs V c) (Ms V c) (Ws V c) (Bs V c) (grow t r) o := by
  rw [outsAt0_A V c t h0]
  refine (congrFun (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)) (ix2 (0 : Fin 1) o)).trans ?_
  refine (pay8_apply (iblk0 V c 0 t) (iblk0 V c 2 t) (iblk0 V c 3 t) (iblk0 V c 1 t) (k0_pay3 (F := Ideal)) o).trans ?_
  rw [pay3_apply, zero_add]
  exact Fintype.sum_congr _ _ fun r => hmB_blk_sq V c t r o

/-- A later point adds the block's column sums of `hm²` to what the point before left. -/
theorem stepB5 (c : Dev nD) (t : Fin cfg0.N) (h0 : ¬t.val % 100 = 0) (o : Fin 64) :
    (outsAt0 V c t.val t.isLt).2.1 (ix2 (0 : Fin 1) o)
      = (outsAt0 V c (t.val - 1) (Nat.lt_of_le_of_lt (Nat.sub_le _ _) t.isLt)).2.1 (ix2 (0 : Fin 1) o)
        + ∑ r : Fin 12800, hm (Xs V c) (Ms V c) (Ws V c) (Bs V c) (grow t r) o * hm (Xs V c) (Ms V c) (Ws V c) (Bs V c) (grow t r) o := by
  rw [outsAt0_B V c t h0]
  refine (congrFun (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) o)).trans ?_
  refine (pay8_apply (iblk0 V c 0 t) (iblk0 V c 2 t) (iblk0 V c 3 t) (iblk0 V c 1 t) (outsAt0 V c (t.val - 1) (Nat.lt_of_le_of_lt (Nat.sub_le _ _) t.isLt)).2.1 o).trans ?_
  rw [Fintype.sum_congr _ _ fun r => hmB_blk_sq V c t r o]

/-- The first point leaves the sum of the block's mask column over zero. -/
theorem stepA6 (c : Dev nD) (t : Fin cfg0.N) (h0 : t.val % 100 = 0) :
    (outsAt0 V c t.val t.isLt).2.2 (ix2 (0 : Fin 1) (0 : Fin 1)) = ∑ r : Fin 12800, Ms V c (grow t r) := by
  rw [outsAt0_A V c t h0]
  refine (congrFun (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)) (ix2 (0 : Fin 1) (0 : Fin 1))).trans ?_
  refine (pay1_eq (iblk0 V c 1 t) (k0_pay4 (F := Ideal)) (fun r => Ms V c (grow t r)) fun r => blk1_apply V c t r).trans ?_
  rw [pay4_apply, zero_add]

/-- A later point adds the sum of the block's mask column to what the point before left. -/
theorem stepB6 (c : Dev nD) (t : Fin cfg0.N) (h0 : ¬t.val % 100 = 0) :
    (outsAt0 V c t.val t.isLt).2.2 (ix2 (0 : Fin 1) (0 : Fin 1))
      = (outsAt0 V c (t.val - 1) (Nat.lt_of_le_of_lt (Nat.sub_le _ _) t.isLt)).2.2 (ix2 (0 : Fin 1) (0 : Fin 1)) + ∑ r : Fin 12800, Ms V c (grow t r) := by
  rw [outsAt0_B V c t h0]
  refine (congrFun (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) (0 : Fin 1))).trans ?_
  exact pay1_eq (iblk0 V c 1 t) (outsAt0 V c (t.val - 1) (Nat.lt_of_le_of_lt (Nat.sub_le _ _) t.isLt)).2.2 (fun r => Ms V c (grow t r)) fun r => blk1_apply V c t r

/-! ## The accumulation, by induction on the point -/

/-- One more block, at a point given by its number. -/
theorem psum_succ' (f : Fin 1280000 → EReal) (n : ℕ) (h : n < cfg0.N) :
    psum f (n + 1) = psum f n + ∑ r : Fin 12800, f (grow ⟨n, h⟩ r) := psum_succ f ⟨n, h⟩

/-- A point after the first is not the first of the run. -/
theorem not_first (n : ℕ) (h : n + 1 < cfg0.N) : ¬(⟨n + 1, h⟩ : Fin cfg0.N).val % 100 = 0 := by
  have hN : cfg0.N = 100 := N_0
  show ¬(n + 1) % 100 = 0
  omega

/-- After point `n` the first accumulator holds, at channel `o`, the sum of `hm` over the rows of blocks `0 … n`. -/
theorem acc4 (c : Dev nD) (o : Fin 64) : ∀ (n : ℕ) (h : n < cfg0.N),
    (outsAt0 V c n h).1 (ix2 (0 : Fin 1) o) = psum (fun j => hm (Xs V c) (Ms V c) (Ws V c) (Bs V c) j o) (n + 1)
  | 0, h => (stepA4 V c ⟨0, h⟩ rfl o).trans (by rw [psum_succ' _ 0 h, psum_zero, zero_add])
  | n + 1, h => by
    refine (stepB4 V c ⟨n + 1, h⟩ (not_first n h) o).trans ?_
    show (outsAt0 V c n _).1 (ix2 (0 : Fin 1) o) + _ = _
    rw [acc4 c o n (Nat.lt_of_succ_lt h), psum_succ' _ (n + 1) h]

/-- After point `n` the second accumulator holds, at channel `o`, the sum of `hm²` over the rows of blocks `0 … n`. -/
theorem acc5 (c : Dev nD) (o : Fin 64) : ∀ (n : ℕ) (h : n < cfg0.N),
    (outsAt0 V c n h).2.1 (ix2 (0 : Fin 1) o)
      = psum (fun j => hm (Xs V c) (Ms V c) (Ws V c) (Bs V c) j o * hm (Xs V c) (Ms V c) (Ws V c) (Bs V c) j o) (n + 1)
  | 0, h => (stepA5 V c ⟨0, h⟩ rfl o).trans (by rw [psum_succ' _ 0 h, psum_zero, zero_add])
  | n + 1, h => by
    refine (stepB5 V c ⟨n + 1, h⟩ (not_first n h) o).trans ?_
    show (outsAt0 V c n _).2.1 (ix2 (0 : Fin 1) o) + _ = _
    rw [acc5 c o n (Nat.lt_of_succ_lt h), psum_succ' _ (n + 1) h]

/-- After point `n` the third accumulator holds the sum of the mask over the rows of blocks `0 … n`. -/
theorem acc6 (c : Dev nD) : ∀ (n : ℕ) (h : n < cfg0.N),
    (outsAt0 V c n h).2.2 (ix2 (0 : Fin 1) (0 : Fin 1)) = psum (Ms V c) (n + 1)
  | 0, h => (stepA6 V c ⟨0, h⟩ rfl).trans (by rw [psum_succ' _ 0 h, psum_zero, zero_add])
  | n + 1, h => by
    refine (stepB6 V c ⟨n + 1, h⟩ (not_first n h)).trans ?_
    show (outsAt0 V c n _).2.2 (ix2 (0 : Fin 1) (0 : Fin 1)) + _ = _
    rw [acc6 c n (Nat.lt_of_succ_lt h), psum_succ' _ (n + 1) h]

/-! ## The result arrays -/

/-- The last point. -/
abbrev tLast : Fin cfg0.N := ⟨99, by rw [show cfg0.N = 100 from N_0]; decide⟩

/-- The first result: the sums of `hm`, as a one-row array. -/
def resH (c : Dev nD) : Buf (Elt Ideal) ((c : Thread nD τ).loc main_v15_0) :=
  (fun i : S1x64.Idx => sumH (Xs V c) (Ms V c) (Ws V c) (Bs V c) ⟨(i 1).val, (i 1).isLt⟩)
/-- The second result: the sums of `hm²`, as a one-row array. -/
def resSq (c : Dev nD) : Buf (Elt Ideal) ((c : Thread nD τ).loc main_v15_1) :=
  (fun i : S1x64.Idx => sumSq (Xs V c) (Ms V c) (Ws V c) (Bs V c) ⟨(i 1).val, (i 1).isLt⟩)
/-- The third result: the number of valid points, as a one-entry array. -/
def resM (c : Dev nD) : Buf (Elt Ideal) ((c : Thread nD τ).loc main_v15_2) :=
  (fun _ : S1x1.Idx => sumM (Ms V c))

/-- After the last point the first accumulator holds the sums of `hm` over all rows. -/
theorem last4 (c : Dev nD) : (outsAt0 V c tLast.val tLast.isLt).1 = resH V c := by
  funext i
  obtain ⟨a, b, rfl⟩ : ∃ (a : Fin 1) (b : Fin 64), i = ix2 a b := ⟨i 0, i 1, eq_ix2 i⟩
  obtain rfl : a = 0 := Subsingleton.elim _ _
  refine (acc4 V c b 99 tLast.isLt).trans ?_
  exact psum_all _

/-- After the last point the second accumulator holds the sums of `hm²` over all rows. -/
theorem last5 (c : Dev nD) : (outsAt0 V c tLast.val tLast.isLt).2.1 = resSq V c := by
  funext i
  obtain ⟨a, b, rfl⟩ : ∃ (a : Fin 1) (b : Fin 64), i = ix2 a b := ⟨i 0, i 1, eq_ix2 i⟩
  obtain rfl : a = 0 := Subsingleton.elim _ _
  refine (acc5 V c b 99 tLast.isLt).trans ?_
  exact psum_all _

/-- After the last point the third accumulator holds the sum of the mask over all rows. -/
theorem last6 (c : Dev nD) : (outsAt0 V c tLast.val tLast.isLt).2.2 = resM V c := by
  funext i
  obtain ⟨a, b, rfl⟩ : ∃ (a : Fin 1) (b : Fin 1), i = ix2 a b := ⟨i 0, i 1, eq_ix2 i⟩
  obtain rfl : a = 0 := Subsingleton.elim _ _
  obtain rfl : b = 0 := Subsingleton.elim _ _
  refine (acc6 V c 99 tLast.isLt).trans ?_
  exact psum_all _

/-- The one write-back of result 0, at the last point, writes it: the accumulator's one block is the whole array. -/
theorem flushed4_eq (c : Dev nD) (t : Fin cfg0.N) (hf : (cfg0.win 4).flush t = true) :
    (dat0 V c).flushed 4 t = ((cfg0.win 4).blk t).view.read (Elt Ideal) (resH V c) := by
  have hN : cfg0.N = 100 := N_0
  have h99 : t.val = 99 := by have := (flush0_4 t).mp hf; have := t.isLt; omega
  obtain rfl : t = tLast := Fin.ext h99
  show (cfg0.win 4).cut (grid0.coords tLast) ((dat0 V c).after 4 tLast) = _
  rw [after0_4, last4 V c]
  have hz' : (fun a => win0_4.index tLast a * main_v15_0.ty.shape.size a) = fun _ => 0 :=
    funext fun a => by fin_cases a <;> decide +kernel
  exact (Memref.read_access_unit_zero (Elt Ideal) main_v15_0 hz' (fun a => by rw [congrFun hz' a]; simp) (resH V c)).symm

/-- So result array 0 ends holding it: the last point's block covers the array. -/
theorem final4 (c : Dev nD) : (dat0 V c).arrAt 4 cfg0.N = resH V c :=
  (dat0 V c).arrAt_eq_of_cover 4 (resH V c) (flushed4_eq V c) fun i =>
    ⟨tLast, (flush0_4 tLast).mpr (by decide), by
      show i ∈ ((View.whole main_v15_0).slice (win0_4.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 64 from by decide +kernel]
        omega⟩

/-- The one write-back of result 1, at the last point, writes it: the accumulator's one block is the whole array. -/
theorem flushed5_eq (c : Dev nD) (t : Fin cfg0.N) (hf : (cfg0.win 5).flush t = true) :
    (dat0 V c).flushed 5 t = ((cfg0.win 5).blk t).view.read (Elt Ideal) (resSq V c) := by
  have hN : cfg0.N = 100 := N_0
  have h99 : t.val = 99 := by have := (flush0_5 t).mp hf; have := t.isLt; omega
  obtain rfl : t = tLast := Fin.ext h99
  show (cfg0.win 5).cut (grid0.coords tLast) ((dat0 V c).after 5 tLast) = _
  rw [after0_5, last5 V c]
  have hz' : (fun a => win0_5.index tLast a * main_v15_1.ty.shape.size a) = fun _ => 0 :=
    funext fun a => by fin_cases a <;> decide +kernel
  exact (Memref.read_access_unit_zero (Elt Ideal) main_v15_1 hz' (fun a => by rw [congrFun hz' a]; simp) (resSq V c)).symm

/-- So result array 1 ends holding it: the last point's block covers the array. -/
theorem final5 (c : Dev nD) : (dat0 V c).arrAt 5 cfg0.N = resSq V c :=
  (dat0 V c).arrAt_eq_of_cover 5 (resSq V c) (flushed5_eq V c) fun i =>
    ⟨tLast, (flush0_5 tLast).mpr (by decide), by
      show i ∈ ((View.whole main_v15_1).slice (win0_5.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]
        omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 64 from by decide +kernel]
        omega⟩

/-- The one write-back of result 2, at the last point, writes it: the accumulator's one block is the whole array. -/
theorem flushed6_eq (c : Dev nD) (t : Fin cfg0.N) (hf : (cfg0.win 6).flush t = true) :
    (dat0 V c).flushed 6 t = ((cfg0.win 6).blk t).view.read (Elt Ideal) (resM V c) := by
  have hN : cfg0.N = 100 := N_0
  have h99 : t.val = 99 := by have := (flush0_6 t).mp hf; have := t.isLt; omega
  obtain rfl : t = tLast := Fin.ext h99
  show (cfg0.win 6).cut (grid0.coords tLast) ((dat0 V c).after 6 tLast) = _
  rw [after0_6, last6 V c]
  have hz' : (fun a => win0_6.index tLast a * main_v15_2.ty.shape.size a) = fun _ => 0 :=
    funext fun a => by fin_cases a <;> decide +kernel
  exact (Memref.read_access_unit_zero (Elt Ideal) main_v15_2 hz' (fun a => by rw [congrFun hz' a]; simp) (resM V c)).symm

/-- So result array 2 ends holding it: the last point's block covers the array. -/
theorem final6 (c : Dev nD) : (dat0 V c).arrAt 6 cfg0.N = resM V c :=
  (dat0 V c).arrAt_eq_of_cover 6 (resM V c) (flushed6_eq V c) fun i =>
    ⟨tLast, (flush0_6 tLast).mpr (by decide), by
      show i ∈ ((View.whole main_v15_2).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [show win0_6.index tLast 0 * win0_6.size 0 = 0 from by decide +kernel,
          show win0_6.xsize (grid0.coords tLast) 0 = 1 from by decide +kernel]
        omega
      | ⟨1, _⟩ =>
        show win0_6.index tLast 1 * win0_6.size 1 ≤ (i 1 : Nat)
          ∧ (i 1 : Nat) < win0_6.index tLast 1 * win0_6.size 1 + win0_6.xsize (grid0.coords tLast) 1
        rw [show win0_6.index tLast 1 * win0_6.size 1 = 0 from by decide +kernel,
          show win0_6.xsize (grid0.coords tLast) 1 = 1 from by decide +kernel]
        omega⟩

/-! ## The statements -/

/-- The first result array ends holding `sumH`. -/
theorem stats_sumH (c : Dev nD) :
    (dat0 V c).arrAt 4 cfg0.N = (fun i : S1x64.Idx => sumH (Xs V c) (Ms V c) (Ws V c) (Bs V c) ⟨(i 1).val, (i 1).isLt⟩) := final4 V c
/-- The second result array ends holding `sumSq`. -/
theorem stats_sumSq (c : Dev nD) :
    (dat0 V c).arrAt 5 cfg0.N = (fun i : S1x64.Idx => sumSq (Xs V c) (Ms V c) (Ws V c) (Bs V c) ⟨(i 1).val, (i 1).isLt⟩) := final5 V c
/-- The third result array ends holding `sumM`. -/
theorem stats_sumM (c : Dev nD) :
    (dat0 V c).arrAt 6 cfg0.N = (fun _ : S1x1.Idx => sumM (Ms V c)) := final6 V c

end Run

end Cert.KernelIdeal.Stats

end
-- ==== Proof.RefValue.lean ====
/-
  The reference program read index by index.

  The reference computes, for 40000 voxels of 32 points with 4 features each: the validity mask of every point (its
  position in the voxel is below the voxel's count); the linear map of every point to 64 channels with its bias,
  zeroed on invalid points; the number of valid points, at least one; the mean of every channel over all points; the
  deviation from that mean, zeroed again on invalid points; the variance as the mean of the squared deviations; the
  normalised activation `max (dev · rsqrt (var + ε) · γ + β · mask, 0) · mask`; and for every voxel the sum of the
  activations over its points divided by the voxel's count, at least one.

  This module reads each of those intermediate arrays at an index given by its coordinates and identifies it with the
  corresponding term of the centred arrangement of the specification (`Cert.VoxelNorm`), whose arrays are flattened:
  point `p` of voxel `v` is row `32 v + p`.  Elementwise operations and broadcasts read through at an index; the three
  sums over all points (of the mask, of the masked linear map, of the squared deviations) are sums over the index set
  of pairs (voxel, point), re-indexed to the flattened rows by the bijection `(v, p) ↦ 32 v + p`.  Only commutativity
  and associativity of extended-real addition enter (through re-indexing a finite sum); no distributivity or
  cancellation is used.  The conclusion `result_eq`: the reference's result at `(v, o)` is `outR … v o`.
-/
import proofs.«165832_j45784351375623_2_alg».proof.Proof.Gen.ReferenceIdeal.Read
import proofs.«165832_j45784351375623_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.VoxelNorm Idealize.ShloMosaic Idealize.ShloMosaic.ValueIdx
open scoped BigOperators

variable (x0 : (⟨S40000x32x4, .f32⟩ : BufTy).Contents (Elt Ideal)) (x1 : (⟨S40000, .i32⟩ : BufTy).Contents (Elt Ideal))
    (x2 : (⟨S64x4, .f32⟩ : BufTy).Contents (Elt Ideal)) (x3 x4 x5 : (⟨S64, .f32⟩ : BufTy).Contents (Elt Ideal))

/-! ## The flattened row index -/

/-- The voxel of row `32 v + p` is `v`. -/
theorem row_div (v : Fin 40000) (p : Fin 32) : (row v p).val / 32 = v.val := by
  have := p.isLt; show (v.val * 32 + p.val) / 32 = v.val; omega
/-- The point of row `32 v + p` is `p`. -/
theorem row_mod (v : Fin 40000) (p : Fin 32) : (row v p).val % 32 = p.val := by
  have := p.isLt; show (v.val * 32 + p.val) % 32 = p.val; omega

/-- The voxel of a flattened row. -/
def vox (j : Fin 1280000) : Fin 40000 := ⟨j.val / 32, by have := j.isLt; omega⟩
/-- The point of a flattened row within its voxel. -/
def pt (j : Fin 1280000) : Fin 32 := ⟨j.val % 32, Nat.mod_lt _ (by decide)⟩
/-- Every flattened row is the row of its voxel and point. -/
theorem row_vox_pt (j : Fin 1280000) : row (vox j) (pt j) = j := Fin.ext (by
  show j.val / 32 * 32 + j.val % 32 = j.val; omega)

/-- The mask of the specification at row `32 v + p`: position `p` compared with the count of voxel `v`. -/
theorem maskOf_row (v : Fin 40000) (p : Fin 32) :
    maskOf x1 (row v p) = FloatOps.uitofp (F := Ideal) .f32 (IntOp.cmpi .slt (BitVec.ofNat 32 p.val) (x1 (ix1 v))) := by
  unfold maskOf
  have h1 : (⟨(row v p).val / 32, by have := (row v p).isLt; omega⟩ : Fin 40000) = v := Fin.ext (row_div v p)
  rw [h1, row_mod]

/-- The points of the specification at row `32 v + p`: the input at `(v, p, k)`. -/
theorem pointsOf_row (v : Fin 40000) (p : Fin 32) (k : Fin 4) : pointsOf x0 (row v p) k = x0 (ix3 v p k) := by
  unfold pointsOf
  have h1 : (⟨(row v p).val / 32, by have := (row v p).isLt; omega⟩ : Fin 40000) = v := Fin.ext (row_div v p)
  have h2 : (⟨(row v p).val % 32, Nat.mod_lt _ (by decide)⟩ : Fin 32) = p := Fin.ext (row_mod v p)
  rw [h1, h2]

/-! ## The mask and its broadcasts -/

/-- The mask as a float at `(v, p)`. -/
theorem mask6 (v : Fin 40000) (p : Fin 32) : val_main_v6 (F := Ideal) x1 (ix2 v p) = maskOf x1 (row v p) := by
  rw [maskOf_row, val_main_v6_apply, val_main_v5_apply, val_main_v3_apply, val_main_v1_apply, val_main_v0_apply,
    val_main_v4_apply, val_main_v2_apply]
  have e : idx_main_v2 (idx_main_v4 (ix2 v p)) = ix1 v := funext fun a => Fin.ext (by match a with | ⟨0, _⟩ => rfl)
  rw [e]

/-- The mask with a unit last axis. -/
theorem mask7 (v : Fin 40000) (p : Fin 32) (z : Fin 1) : val_main_v7 (F := Ideal) x1 (ix3 v p z) = maskOf x1 (row v p) := by
  rw [val_main_v7_apply]
  have e : idx_main_v7 (ix3 v p z) = ix2 v p := funext fun a => Fin.ext (by match a with | ⟨0, _⟩ => rfl | ⟨1, _⟩ => rfl)
  rw [e, mask6]

/-- The mask broadcast over the channels (the factor of the linear map). -/
theorem mask12 (v : Fin 40000) (p : Fin 32) (o : Fin 64) : val_main_v12 (F := Ideal) x1 (ix3 v p o) = maskOf x1 (row v p) := by
  rw [val_main_v12_apply]
  have e : idx_main_v12 (ix3 v p o) = ix3 v p (0 : Fin 1) :=
    funext fun a => Fin.ext (by match a with | ⟨0, _⟩ => rfl | ⟨1, _⟩ => rfl | ⟨2, _⟩ => rfl)
  rw [e, mask7]
/-- The mask broadcast over the channels (the factor of the deviation). -/
theorem mask22 (v : Fin 40000) (p : Fin 32) (o : Fin 64) : val_main_v22 (F := Ideal) x1 (ix3 v p o) = maskOf x1 (row v p) := by
  rw [val_main_v22_apply]
  have e : idx_main_v22 (ix3 v p o) = ix3 v p (0 : Fin 1) :=
    funext fun a => Fin.ext (by match a with | ⟨0, _⟩ => rfl | ⟨1, _⟩ => rfl | ⟨2, _⟩ => rfl)
  rw [e, mask7]
/-- The mask broadcast over the channels (the factor of `β`). -/
theorem mask39 (v : Fin 40000) (p : Fin 32) (o : Fin 64) : val_main_v39 (F := Ideal) x1 (ix3 v p o) = maskOf x1 (row v p) := by
  rw [val_main_v39_apply]
  have e : idx_main_v39 (ix3 v p o) = ix3 v p (0 : Fin 1) :=
    funext fun a => Fin.ext (by match a with | ⟨0, _⟩ => rfl | ⟨1, _⟩ => rfl | ⟨2, _⟩ => rfl)
  rw [e, mask7]
/-- The mask broadcast over the channels (the factor of the rectified activation). -/
theorem mask43 (v : Fin 40000) (p : Fin 32) (o : Fin 64) : val_main_v43 (F := Ideal) x1 (ix3 v p o) = maskOf x1 (row v p) := by
  rw [val_main_v43_apply]
  have e : idx_main_v43 (ix3 v p o) = ix3 v p (0 : Fin 1) :=
    funext fun a => Fin.ext (by match a with | ⟨0, _⟩ => rfl | ⟨1, _⟩ => rfl | ⟨2, _⟩ => rfl)
  rw [e, mask7]

/-! ## The linear map -/

/-- The linear map with its bias at `(v, p, o)`: `∑ₖ X (32 v + p) k · W o k + B o`. -/
theorem lin11 (v : Fin 40000) (p : Fin 32) (o : Fin 64) :
    val_main_v11 (F := Ideal) x0 x2 x3 (ix3 v p o) = lin (pointsOf x0) (entries x2) (vector x3) (row v p) o := by
  rw [val_main_v11_apply, val_main_v8_apply, val_main_v10_apply, val_main_v9_apply]
  have e : idx_main_v9 (idx_main_v10 (ix3 v p o)) = ix1 o := funext fun a => Fin.ext (by match a with | ⟨0, _⟩ => rfl)
  rw [e]
  unfold lin
  show (∑ k : Fin 4, x0 (lidx_main_v8 (ix3 v p o) k) * x2 (ridx_main_v8 (ix3 v p o) k)) + x3 (ix1 o) = _
  refine congrArg (· + x3 (ix1 o)) (Finset.sum_congr rfl fun k _ => ?_)
  rw [pointsOf_row]
  have el : lidx_main_v8 (ix3 v p o) k = ix3 v p k :=
    funext fun a => Fin.ext (by match a with | ⟨0, _⟩ => rfl | ⟨1, _⟩ => rfl | ⟨2, _⟩ => rfl)
  have er : ridx_main_v8 (ix3 v p o) k = ix2 o k := funext fun a => Fin.ext (by match a with | ⟨0, _⟩ => rfl | ⟨1, _⟩ => rfl)
  rw [el, er]
  rfl

/-- The masked linear map at `(v, p, o)`. -/
theorem hm13 (v : Fin 40000) (p : Fin 32) (o : Fin 64) :
    val_main_v13 (F := Ideal) x0 x1 x2 x3 (ix3 v p o) = hm (pointsOf x0) (maskOf x1) (entries x2) (vector x3) (row v p) o := by
  rw [val_main_v13_apply, lin11, mask12]
  rfl

/-! ## Sums over all points, re-indexed by the flattened row -/

/-- A sum over all (voxel, point, unit) indices is the sum over the flattened rows: `(v, p, 0) ↦ 32 v + p` is a
    bijection. -/
theorem sum_rows1 (f : S40000x32x1.Idx → EReal) :
    ∑ i : S40000x32x1.Idx, f i = ∑ j : Fin 1280000, f (ix3 (vox j) (pt j) (0 : Fin 1)) := by
  symm
  refine Finset.sum_nbij' (fun j => ix3 (vox j) (pt j) (0 : Fin 1))
    (fun i => ⟨(i 0).val * 32 + (i 1).val, by
      have h0 : (i 0).val < 40000 := (i 0).isLt
      have h1 : (i 1).val < 32 := (i 1).isLt
      omega⟩) (fun _ _ => Finset.mem_univ _) (fun _ _ => Finset.mem_univ _) ?_ ?_ (fun _ _ => rfl)
  · intro j _
    exact Fin.ext (by show j.val / 32 * 32 + j.val % 32 = j.val; omega)
  · intro i _
    have h0 : (i 0).val < 40000 := (i 0).isLt
    have h1 : (i 1).val < 32 := (i 1).isLt
    have h2 : (i 2).val < 1 := (i 2).isLt
    funext a
    refine Fin.ext ?_
    match a with
    | ⟨0, _⟩ => show ((i 0).val * 32 + (i 1).val) / 32 = (i 0).val; omega
    | ⟨1, _⟩ => show ((i 0).val * 32 + (i 1).val) % 32 = (i 1).val; omega
    | ⟨2, _⟩ => show 0 = (i 2).val; omega

/-- An index of the [40000, 32, 64] array reduces over its first two axes to channel `o` exactly when its last
    coordinate is `o`. -/
theorem drop_eq_iff (i : S40000x32x64.Idx) (o : Fin 64) :
    reducesTo_S40000x32x64_S64_d0_1.drop i = ix1 o ↔ (i 2).val = o.val := by
  constructor
  · intro h
    have h' := congrArg (fun t : S64.Idx => (t 0).val) h
    exact (Shape.ReducesTo.drop_apply_val_of_eq reducesTo_S40000x32x64_S64_d0_1 i 0 2).symm.trans h'
  · intro h
    funext b
    match b with
    | ⟨0, _⟩ => exact Fin.ext ((Shape.ReducesTo.drop_apply_val_of_eq reducesTo_S40000x32x64_S64_d0_1 i 0 2).trans h)

/-- The sum over the indices that reduce to channel `o` is the sum over the flattened rows at that channel:
    `(v, p, o) ↦ 32 v + p` is a bijection from those indices. -/
theorem sum_rows64 (f : S40000x32x64.Idx → EReal) (o : Fin 64) :
    ∑ i ∈ Finset.univ.filter (fun i => reducesTo_S40000x32x64_S64_d0_1.drop i = ix1 o), f i
      = ∑ j : Fin 1280000, f (ix3 (vox j) (pt j) o) := by
  symm
  refine Finset.sum_nbij' (fun j => ix3 (vox j) (pt j) o)
    (fun i => ⟨(i 0).val * 32 + (i 1).val, by
      have h0 : (i 0).val < 40000 := (i 0).isLt
      have h1 : (i 1).val < 32 := (i 1).isLt
      omega⟩) ?_ (fun _ _ => Finset.mem_univ _) ?_ ?_ (fun _ _ => rfl)
  · intro j _
    rw [Finset.mem_filter]
    exact ⟨Finset.mem_univ _, (drop_eq_iff _ o).2 rfl⟩
  · intro j _
    exact Fin.ext (by show j.val / 32 * 32 + j.val % 32 = j.val; omega)
  · intro i hi
    have h0 : (i 0).val < 40000 := (i 0).isLt
    have h1 : (i 1).val < 32 := (i 1).isLt
    have h2 : (i 2).val = o.val := (drop_eq_iff i o).1 (Finset.mem_filter.1 hi).2
    funext a
    refine Fin.ext ?_
    match a with
    | ⟨0, _⟩ => show ((i 0).val * 32 + (i 1).val) / 32 = (i 0).val; omega
    | ⟨1, _⟩ => show ((i 0).val * 32 + (i 1).val) % 32 = (i 1).val; omega
    | ⟨2, _⟩ => exact h2.symm

/-- The float sum over the first two axes of a [40000, 32, 64] array, read at channel `o`: the initial value plus the
    sum over the flattened rows. -/
theorem reduce64 (y : FVec Ideal S40000x32x64 .f32) (init : FVec Ideal S_ .f32) (o : Fin 64) :
    Host.reduceAdd y init reducesTo_S40000x32x64_S64_d0_1 h_S_ (ix1 o)
      = init (Shape.Idx.first h_S_) + ∑ j : Fin 1280000, y (ix3 (vox j) (pt j) o) := by
  simp only [Host.reduceAdd, Ideal.hostReduceAdd_def]
  unfold Ideal.hostReduceAdd
  rw [sum_rows64]

/-! ## The statistics -/

/-- The number of valid points. -/
theorem sumM14 (i : S_.Idx) : val_main_v14 (F := Ideal) x1 i = sumM (maskOf x1) := by
  rw [val_main_v14_apply, val_main_cst_apply, Ideal.ofBits_def, Ideal.ofBits_zero_f32, zero_add, sum_rows1]
  unfold sumM
  exact Finset.sum_congr rfl fun j _ => by rw [mask7, row_vox_pt]

/-- The divisor: the number of valid points, at least one. -/
theorem count15 (i : S_.Idx) : val_main_v15 (F := Ideal) x1 i = count (sumM (maskOf x1)) := by
  rw [val_main_v15_apply, sumM14, val_main_cst_0_apply]
  rfl

/-- The sum of the masked linear map over all points, at channel `o`. -/
theorem sumH16 (o : Fin 64) :
    val_main_v16 (F := Ideal) x0 x1 x2 x3 (ix1 o) = sumH (pointsOf x0) (maskOf x1) (entries x2) (vector x3) o := by
  unfold val_main_v16
  rw [reduce64, val_main_cst_1_apply, Ideal.ofBits_def, Ideal.ofBits_zero_f32, zero_add]
  unfold sumH
  exact Finset.sum_congr rfl fun j _ => by rw [hm13, row_vox_pt]

/-- The mean of channel `o`. -/
theorem mean18 (o : Fin 64) :
    val_main_v18 (F := Ideal) x0 x1 x2 x3 (ix1 o)
      = meanOf (sumH (pointsOf x0) (maskOf x1) (entries x2) (vector x3)) (sumM (maskOf x1)) o := by
  rw [val_main_v18_apply, sumH16, val_main_v17_apply, count15]
  rfl

/-- The mean broadcast over the points. -/
theorem mean20 (v : Fin 40000) (p : Fin 32) (o : Fin 64) :
    val_main_v20 (F := Ideal) x0 x1 x2 x3 (ix3 v p o)
      = meanOf (sumH (pointsOf x0) (maskOf x1) (entries x2) (vector x3)) (sumM (maskOf x1)) o := by
  rw [val_main_v20_apply, val_main_v19_apply]
  have e : idx_main_v19 (idx_main_v20 (ix3 v p o)) = ix1 o := funext fun a => Fin.ext (by match a with | ⟨0, _⟩ => rfl)
  rw [e, mean18]

/-- The deviation from the mean, zeroed on invalid points, at `(v, p, o)`. -/
theorem dev23 (v : Fin 40000) (p : Fin 32) (o : Fin 64) :
    val_main_v23 (F := Ideal) x0 x1 x2 x3 (ix3 v p o) = dev (pointsOf x0) (maskOf x1) (entries x2) (vector x3) (row v p) o := by
  rw [val_main_v23_apply, val_main_v21_apply, hm13, mean20, mask22]
  rfl

/-- The variance of channel `o`: the mean of the squared deviations. -/
theorem var27 (o : Fin 64) :
    val_main_v27 (F := Ideal) x0 x1 x2 x3 (ix1 o) = varR (pointsOf x0) (maskOf x1) (entries x2) (vector x3) o := by
  rw [val_main_v27_apply, val_main_v26_apply, count15]
  unfold val_main_v25
  rw [reduce64, val_main_cst_2_apply, Ideal.ofBits_def, Ideal.ofBits_zero_f32, zero_add]
  unfold varR
  refine congrArg (fun s => Ideal.div s (count (sumM (maskOf x1)))) (Finset.sum_congr rfl fun j _ => ?_)
  rw [val_main_v24_apply, dev23, row_vox_pt]
  rfl

/-! ## The normalised activation and the pooled result -/

/-- The reciprocal square root of the offset variance, broadcast over the points. -/
theorem rs32 (v : Fin 40000) (p : Fin 32) (o : Fin 64) :
    val_main_v32 (F := Ideal) x0 x1 x2 x3 (ix3 v p o)
      = Ideal.rsqrt (varR (pointsOf x0) (maskOf x1) (entries x2) (vector x3) o + eps) := by
  rw [val_main_v32_apply, val_main_v31_apply]
  have e : idx_main_v31 (idx_main_v32 (ix3 v p o)) = ix1 o := funext fun a => Fin.ext (by match a with | ⟨0, _⟩ => rfl)
  rw [e, val_main_v30_apply, val_main_v29_apply, var27, val_main_v28_apply, val_main_cst_3_apply,
    Ideal.hostUnary_rsqrt_def, Ideal.addf_def, Ideal.ofBits_def, eps]

/-- `γ` broadcast over the points. -/
theorem gamma35 (v : Fin 40000) (p : Fin 32) (o : Fin 64) : val_main_v35 (F := Ideal) x4 (ix3 v p o) = vector x4 o := by
  rw [val_main_v35_apply, val_main_v34_apply]
  have e : idx_main_v34 (idx_main_v35 (ix3 v p o)) = ix1 o := funext fun a => Fin.ext (by match a with | ⟨0, _⟩ => rfl)
  rw [e]
  rfl

/-- `β` broadcast over the points. -/
theorem beta38 (v : Fin 40000) (p : Fin 32) (o : Fin 64) : val_main_v38 (F := Ideal) x5 (ix3 v p o) = vector x5 o := by
  rw [val_main_v38_apply, val_main_v37_apply]
  have e : idx_main_v37 (idx_main_v38 (ix3 v p o)) = ix1 o := funext fun a => Fin.ext (by match a with | ⟨0, _⟩ => rfl)
  rw [e]
  rfl

/-- The normalised, rectified and masked activation at `(v, p, o)`. -/
theorem act44 (v : Fin 40000) (p : Fin 32) (o : Fin 64) :
    val_main_v44 (F := Ideal) x0 x1 x2 x3 x4 x5 (ix3 v p o)
      = max (dev (pointsOf x0) (maskOf x1) (entries x2) (vector x3) (row v p) o
              * Ideal.rsqrt (varR (pointsOf x0) (maskOf x1) (entries x2) (vector x3) o + eps) * vector x4 o
            + vector x5 o * maskOf x1 (row v p)) 0 * maskOf x1 (row v p) := by
  rw [val_main_v44_apply, val_main_v42_apply, val_main_v41_apply, val_main_v36_apply, val_main_v33_apply, dev23, rs32,
    gamma35, val_main_v40_apply, beta38, mask39, val_main_call0_v0_apply, val_main_call0_cst_apply, mask43,
    Ideal.ofBits_def, Ideal.ofBits_zero_f32]
  rfl

/-- The count of voxel `v` as a float, at least one, broadcast over the channels. -/
theorem cnt50 (v : Fin 40000) (o : Fin 64) : val_main_v50 (F := Ideal) x1 (ix2 v o) = countsOf x1 v := by
  rw [val_main_v50_apply, val_main_v48_apply]
  have e : idx_main_v48 (idx_main_v50 (ix2 v o)) = ix1 v := funext fun a => Fin.ext (by match a with | ⟨0, _⟩ => rfl)
  rw [e, val_main_v47_apply, val_main_v45_apply, val_main_v46_apply, val_main_cst_4_apply]
  rfl

/-- The sum of the activations over the points of voxel `v`, at channel `o`. -/
theorem sum49 (v : Fin 40000) (o : Fin 64) :
    val_main_v49 (F := Ideal) x0 x1 x2 x3 x4 x5 (ix2 v o)
      = ∑ p : Fin 32, max (dev (pointsOf x0) (maskOf x1) (entries x2) (vector x3) (row v p) o
              * Ideal.rsqrt (varR (pointsOf x0) (maskOf x1) (entries x2) (vector x3) o + eps) * vector x4 o
            + vector x5 o * maskOf x1 (row v p)) 0 * maskOf x1 (row v p) := by
  rw [val_main_v49_apply, val_main_cst_5_apply, Ideal.ofBits_def, Ideal.ofBits_zero_f32, zero_add]
  refine Finset.sum_congr rfl fun p _ => ?_
  have e : idx_main_v49 (ix2 v o) p = ix3 v p o :=
    funext fun a => Fin.ext (by match a with | ⟨0, _⟩ => rfl | ⟨1, _⟩ => rfl | ⟨2, _⟩ => rfl)
  rw [e, act44]

/-- The reference's result, read index by index, is the centred arrangement. -/
theorem result_eq (x0 : (⟨S40000x32x4, .f32⟩ : BufTy).Contents (Elt Ideal)) (x1 : (⟨S40000, .i32⟩ : BufTy).Contents (Elt Ideal))
    (x2 : (⟨S64x4, .f32⟩ : BufTy).Contents (Elt Ideal)) (x3 x4 x5 : (⟨S64, .f32⟩ : BufTy).Contents (Elt Ideal)) :
    val_main_v51 (F := Ideal) x0 x1 x2 x3 x4 x5
      = fun i => outR (pointsOf x0) (maskOf x1) (entries x2) (vector x3) (vector x4) (vector x5) (countsOf x1)
          ⟨(i 0).val, (i 0).isLt⟩ ⟨(i 1).val, (i 1).isLt⟩ := by
  funext i
  obtain ⟨v, o, rfl⟩ : ∃ (v : Fin 40000) (o : Fin 64), i = ix2 v o := ⟨i 0, i 1, eq_ix2 i⟩
  rw [val_main_v51_apply, sum49, cnt50]
  rfl

end Cert.ReferenceIdeal.RefValue

end
-- ==== Proof.Algebra.lean ====
/-
  The algebra joining the two arrangements of the normalisation.

  Both arrangements of `Spec` compute, for every channel, a variance of the valid points and then an activation of every
  point.  On finite inputs with a 0/1 validity indicator they agree:

  * the mean of the squared masked deviations equals the mean of squares minus the squared mean, and is non-negative, so the
    clip at zero of the folded arrangement is the identity (`varK_eq_varR_real`);
  * hence both arrangements take the reciprocal square root of the same number, and the affine map `lin · scale + shift`
    of the folded arrangement equals the centred `dev · rsqrt · γ + β · Mk` on a valid point, while both activations are
    multiplied by zero on an invalid one (`point_identity`).

  Everything is first proved over the reals, for an abstract finite index type of points, and then transported to the
  extended reals, where every quantity of `Spec` is the coercion of its real counterpart.
-/
import proofs.«165832_j45784351375623_2_alg».proof.Proof.Spec

noncomputable section

namespace Cert.VoxelNorm

open Idealize.ShloMosaic

/-! ## The real side, over an abstract finite type of points -/

section RealSide
variable {ι : Type} [Fintype ι] (h mk : ι → ℝ)

/-- Sum of the masked values. -/
def rH : ℝ := ∑ j, h j * mk j
/-- Sum of the squared masked values. -/
def rQ : ℝ := ∑ j, (h j * mk j) * (h j * mk j)
/-- Number of valid points. -/
def rS : ℝ := ∑ j, mk j
/-- The divisor: the number of valid points, at least one. -/
def rN : ℝ := max (rS mk) 1
/-- The mean. -/
def rMean : ℝ := rH h mk * (1 / rN mk)
/-- Variance as mean of squares minus squared mean, clipped at zero. -/
def rVarK : ℝ := max (rQ h mk * (1 / rN mk) - rMean h mk * rMean h mk) 0
/-- Masked deviation from the mean. -/
def rDev (j : ι) : ℝ := (h j * mk j - rMean h mk) * mk j
/-- Variance as the mean of the squared masked deviations. -/
def rVarR : ℝ := (∑ j, rDev h mk j * rDev h mk j) * (1 / rN mk)

theorem rN_pos : 0 < rN mk := lt_of_lt_of_le one_pos (le_max_right _ _)

variable {mk} (hmk : ∀ j, mk j = 0 ∨ mk j = 1)
include hmk

theorem mask_nonneg (j : ι) : 0 ≤ mk j := by
  rcases hmk j with h0 | h1
  · rw [h0]
  · rw [h1]; exact zero_le_one

/-- Either no point is valid, and then the sum of the masked values vanishes, or the divisor is the number of valid
    points itself. -/
theorem rH_eq_zero_or_rN_eq_rS : rH h mk = 0 ∨ rN mk = rS mk := by
  by_cases hall : ∀ j, mk j = 0
  · left
    unfold rH
    exact Finset.sum_eq_zero (fun j _ => by rw [hall j, mul_zero])
  · right
    obtain ⟨j, hj⟩ := not_forall.mp hall
    have hj1 : mk j = 1 := (hmk j).resolve_left hj
    have hle : mk j ≤ rS mk :=
      Finset.single_le_sum (f := mk) (fun i _ => mask_nonneg hmk i) (Finset.mem_univ j)
    unfold rN
    exact max_eq_left (by rw [← hj1]; exact hle)

/-- The sum of the squared masked deviations, expanded: the mask is idempotent and absorbs into the masked value. -/
theorem sum_rDev_sq :
    ∑ j, rDev h mk j * rDev h mk j
      = rQ h mk - 2 * rMean h mk * rH h mk + rMean h mk * rMean h mk * rS mk := by
  have hterm : ∀ j, rDev h mk j * rDev h mk j
      = (h j * mk j) * (h j * mk j) - 2 * rMean h mk * (h j * mk j) + rMean h mk * rMean h mk * mk j := by
    intro j
    unfold rDev
    rcases hmk j with h0 | h1
    · rw [h0]; ring
    · rw [h1]; ring
  simp only [hterm, Finset.sum_add_distrib, Finset.sum_sub_distrib, ← Finset.mul_sum]
  rfl

/-- The variance identity: the mean of the squared masked deviations is the mean of squares minus the squared mean,
    which is therefore non-negative, so clipping it at zero changes nothing. -/
theorem varK_eq_varR_real : rVarK h mk = rVarR h mk := by
  have hN : 0 < rN mk := rN_pos mk
  have hN0 : rN mk ≠ 0 := ne_of_gt hN
  have hnn : 0 ≤ rVarR h mk := by
    unfold rVarR
    exact mul_nonneg (Finset.sum_nonneg (fun j _ => mul_self_nonneg _)) (by positivity)
  have heq : rVarR h mk = rQ h mk * (1 / rN mk) - rMean h mk * rMean h mk := by
    unfold rVarR
    rw [sum_rDev_sq h hmk]
    rcases rH_eq_zero_or_rN_eq_rS h hmk with h0 | hS
    · have hμ : rMean h mk = 0 := by unfold rMean; rw [h0, zero_mul]
      rw [hμ, h0]; ring
    · rw [← hS]
      unfold rMean
      field_simp
      ring
  unfold rVarK
  rw [← heq]
  exact max_eq_left hnn

omit hmk in
/-- One point: on a valid point the folded affine map is the centred one; on an invalid point both are multiplied by
    zero. -/
theorem point_identity (l m μ g r be : ℝ) (hm : m = 0 ∨ m = 1) :
    max (l * (g * r) + (be - μ * (g * r))) 0 * m = max ((l * m - μ) * m * r * g + be * m) 0 * m := by
  rcases hm with h0 | h1
  · rw [h0, mul_zero, mul_zero]
  · rw [h1]
    congr 2
    ring

end RealSide

/-! ## The two float patterns -/

/-- The pattern of `1.0` denotes `1`. -/
theorem one_eq : one = (1 : EReal) := by
  unfold one
  simp [Ideal.ofBits, Ideal.ieee, -EReal.coe_mul]; norm_num

/-- The real the variance offset's pattern denotes: significand `2²³ + 2606508`, exponent `110 − 127 − 23`. -/
def epsR : ℝ := 10995116 * (2 : ℝ) ^ (-40 : ℤ)

theorem eps_eq : eps = (epsR : EReal) := by
  unfold eps epsR
  simp [Ideal.ofBits, Ideal.ieee, -EReal.coe_mul]

theorem epsR_pos : 0 < epsR := by unfold epsR; positivity

/-! ## Coercion of finite sums and of maxima -/

/-- A finite sum of reals, seen in the extended reals, is the sum of the coercions. -/
theorem coe_sum {α : Type} (s : Finset α) (f : α → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The coercion is monotone, so it commutes with the maximum. -/
theorem coe_max (x y : ℝ) : ((max x y : ℝ) : EReal) = max (x : EReal) (y : EReal) :=
  EReal.coe_strictMono.monotone.map_max

/-! ## Every quantity of the statement is the coercion of its real counterpart -/

section Transport
variable (x : Fin 1280000 → Fin 4 → ℝ) (mk : Fin 1280000 → ℝ) (w : Fin 64 → Fin 4 → ℝ) (b g be : Fin 64 → ℝ)

/-- The linear map over the reals. -/
def rLin (j : Fin 1280000) (o : Fin 64) : ℝ := (∑ k : Fin 4, x j k * w o k) + b o

local notation "X'" => (fun (j : Fin 1280000) (k : Fin 4) => ((x j k : ℝ) : EReal))
local notation "M'" => (fun (j : Fin 1280000) => ((mk j : ℝ) : EReal))
local notation "W'" => (fun (o : Fin 64) (k : Fin 4) => ((w o k : ℝ) : EReal))
local notation "B'" => (fun (o : Fin 64) => ((b o : ℝ) : EReal))
local notation "G'" => (fun (o : Fin 64) => ((g o : ℝ) : EReal))
local notation "Be'" => (fun (o : Fin 64) => ((be o : ℝ) : EReal))
/-- The linear map of every point at channel `o`, as a function of the point. -/
local notation "hR" o => (fun (j : Fin 1280000) => rLin x w b j o)

theorem lin_coe (j : Fin 1280000) (o : Fin 64) : lin X' W' B' j o = (rLin x w b j o : EReal) := by
  unfold lin rLin
  simp only [EReal.coe_add, coe_sum, EReal.coe_mul]

theorem hm_coe (j : Fin 1280000) (o : Fin 64) : hm X' M' W' B' j o = ((rLin x w b j o * mk j : ℝ) : EReal) := by
  unfold hm
  rw [lin_coe, EReal.coe_mul]

theorem sumH_coe (o : Fin 64) : sumH X' M' W' B' o = (rH (hR o) mk : EReal) := by
  unfold sumH rH
  rw [coe_sum]
  exact Finset.sum_congr rfl (fun j _ => hm_coe x mk w b j o)

theorem sumSq_coe (o : Fin 64) : sumSq X' M' W' B' o = (rQ (hR o) mk : EReal) := by
  unfold sumSq rQ
  rw [coe_sum]
  refine Finset.sum_congr rfl (fun j _ => ?_)
  simp only [hm_coe, EReal.coe_mul]

theorem sumM_coe : sumM M' = (rS mk : EReal) := by
  unfold sumM rS
  rw [coe_sum]

theorem count_sumM : count (sumM M') = (rN mk : EReal) := by
  unfold count rN
  rw [sumM_coe, one_eq, coe_max, EReal.coe_one]

theorem meanOf_coe (o : Fin 64) :
    meanOf (sumH X' M' W' B') (sumM M') o = (rMean (hR o) mk : EReal) := by
  unfold meanOf rMean
  rw [count_sumM, Ideal.div_coe (ne_of_gt (rN_pos mk)), sumH_coe, EReal.coe_mul]

theorem varK_coe (o : Fin 64) :
    varK (sumH X' M' W' B') (sumSq X' M' W' B') (sumM M') o = (rVarK (hR o) mk : EReal) := by
  unfold varK rVarK
  rw [meanOf_coe, count_sumM, Ideal.div_coe (ne_of_gt (rN_pos mk)), sumSq_coe, coe_max, EReal.coe_sub,
    EReal.coe_mul, EReal.coe_mul, EReal.coe_zero]

theorem dev_coe (j : Fin 1280000) (o : Fin 64) :
    dev X' M' W' B' j o = (rDev (hR o) mk j : EReal) := by
  unfold dev rDev
  rw [hm_coe, meanOf_coe]
  simp only [EReal.coe_mul, EReal.coe_sub]

theorem varR_coe (o : Fin 64) : varR X' M' W' B' o = (rVarR (hR o) mk : EReal) := by
  have hsum : ∑ j : Fin 1280000, dev X' M' W' B' j o * dev X' M' W' B' j o
      = ∑ j : Fin 1280000, ((rDev (hR o) mk j * rDev (hR o) mk j : ℝ) : EReal) :=
    Finset.sum_congr rfl (fun j _ => by rw [dev_coe, EReal.coe_mul])
  unfold varR rVarR
  rw [count_sumM, Ideal.div_coe (ne_of_gt (rN_pos mk)), hsum, ← coe_sum, ← EReal.coe_mul]

variable {mk} (hmk : ∀ j, mk j = 0 ∨ mk j = 1)
include hmk

/-- Both arrangements take the reciprocal square root of the same positive real. -/
theorem rsqrt_var (o : Fin 64) : ∃ r : ℝ,
    Ideal.rsqrt (varK (sumH X' M' W' B') (sumSq X' M' W' B') (sumM M') o + eps) = (r : EReal) ∧
    Ideal.rsqrt (varR X' M' W' B' o + eps) = (r : EReal) := by
  have hpos : 0 < rVarR (hR o) mk + epsR := by
    have hnn : 0 ≤ rVarR (hR o) mk := by
      unfold rVarR
      exact mul_nonneg (Finset.sum_nonneg (fun j _ => mul_self_nonneg _)) (le_of_lt (one_div_pos.mpr (rN_pos mk)))
    exact add_pos_of_nonneg_of_pos hnn epsR_pos
  refine ⟨(Real.sqrt (rVarR (hR o) mk + epsR))⁻¹, ?_, ?_⟩
  · rw [varK_coe, varK_eq_varR_real _ hmk, eps_eq, ← EReal.coe_add, Ideal.rsqrt_coe,
      if_neg (not_lt.mpr (le_of_lt hpos)), if_neg (ne_of_gt hpos)]
  · rw [varR_coe, eps_eq, ← EReal.coe_add, Ideal.rsqrt_coe,
      if_neg (not_lt.mpr (le_of_lt hpos)), if_neg (ne_of_gt hpos)]

/-- The two arrangements agree on finite inputs given as coercions of reals. -/
theorem outK_eq_outR_coe (Cn : Fin 40000 → EReal) (v : Fin 40000) (o : Fin 64) :
    outK X' M' W' B' G' Be' Cn v o = outR X' M' W' B' G' Be' Cn v o := by
  obtain ⟨r, hrK, hrR⟩ := rsqrt_var x w b hmk o
  unfold outK pooled outR
  refine congrArg (fun s => Ideal.div s (Cn v)) ?_
  refine Finset.sum_congr rfl (fun p _ => ?_)
  have key := congrArg (fun t : ℝ => (t : EReal))
    (point_identity (rLin x w b (row v p) o) (mk (row v p)) (rMean (hR o) mk) (g o) r (be o) (hmk (row v p)))
  simp only [EReal.coe_mul, EReal.coe_add, EReal.coe_sub, coe_max, EReal.coe_zero] at key
  unfold shiftK scaleK
  rw [hrK, hrR, lin_coe, meanOf_coe, dev_coe]
  unfold rDev
  simp only [EReal.coe_mul, EReal.coe_sub]
  exact key

end Transport

/-! ## The statement -/

/-- On finite inputs with a 0/1 validity indicator the folded and the centred arrangement give the same result. -/
theorem outK_eq_outR
    (X : Fin 1280000 → Fin 4 → EReal) (Mk : Fin 1280000 → EReal) (Wt : Fin 64 → Fin 4 → EReal) (B Ga Be : Fin 64 → EReal)
    (Cn : Fin 40000 → EReal)
    (hX : ∀ j k, ∃ r : ℝ, X j k = (r : EReal)) (hW : ∀ o k, ∃ r : ℝ, Wt o k = (r : EReal))
    (hB : ∀ o, ∃ r : ℝ, B o = (r : EReal)) (hG : ∀ o, ∃ r : ℝ, Ga o = (r : EReal)) (hBe : ∀ o, ∃ r : ℝ, Be o = (r : EReal))
    (hM : ∀ j, Mk j = 0 ∨ Mk j = 1) (v : Fin 40000) (o : Fin 64) :
    outK X Mk Wt B Ga Be Cn v o = outR X Mk Wt B Ga Be Cn v o := by
  have hM' : ∀ j, ∃ r : ℝ, Mk j = (r : EReal) ∧ (r = 0 ∨ r = 1) := by
    intro j
    rcases hM j with h0 | h1
    · exact ⟨0, by rw [h0, EReal.coe_zero], Or.inl rfl⟩
    · exact ⟨1, by rw [h1, EReal.coe_one], Or.inr rfl⟩
  choose x hx using hX
  choose w hw using hW
  choose b hb using hB
  choose g hg using hG
  choose be hbe using hBe
  choose mk hmkE hmk using hM'
  obtain rfl : X = fun j k => (x j k : EReal) := funext fun j => funext fun k => hx j k
  obtain rfl : Wt = fun o k => (w o k : EReal) := funext fun o => funext fun k => hw o k
  obtain rfl : B = fun o => (b o : EReal) := funext hb
  obtain rfl : Ga = fun o => (g o : EReal) := funext hg
  obtain rfl : Be = fun o => (be o : EReal) := funext hbe
  obtain rfl : Mk = fun j => (mk j : EReal) := funext hmkE
  exact outK_eq_outR_coe x w b g be hmk Cn v o

end Cert.VoxelNorm

end
-- ==== Proof.Finite.lean ====
/-
  Finiteness of the float arguments, read off the precondition, and the two values of the validity mask.

  The precondition is a conjunction of five statements "every entry x of the array satisfies |x| < +∞", one per float
  argument; each is an elementwise comparison folded by a logical AND over all axes, and the five results are AND-ed
  into one bit.  If that bit is 1, every fold is 1, so every comparison is 1, so |x| = max x (-x) lies strictly below
  the top element of the extended reals at every entry.  An extended real with that property is neither -∞ (whose
  negation is +∞) nor +∞: it is a real number.

  The validity mask is a one-bit comparison read as an unsigned integer, hence the real number 0 or the real number 1.
-/
import proofs.«165832_j45784351375623_2_alg».proof.Pre_finite_inputs
import proofs.«165832_j45784351375623_2_alg».proof.Proof.Gen.Pre_finite_inputs
import proofs.«165832_j45784351375623_2_alg».proof.Proof.Spec
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

/-- The pattern `0x7F800000` denotes the top element `+∞`. -/
theorem ofBits_inf : Ideal.ofBits .f32 0x7F800000#32 = (⊤ : EReal) := by
  simp [Ideal.ofBits, Ideal.ieee]

/-- An extended real whose absolute value `max x (-x)` compares strictly below `+∞` is a real number. -/
theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change BitVec.ofBool (decide (max x (-x) < Ideal.ofBits .f32 0x7F800000#32)) = 1#1 at h
  rw [ofBits_inf] at h
  have hlt : max x (-x) < (⊤ : EReal) := by
    by_contra hn
    simp [hn] at h
  induction x using EReal.rec with
  | bot => simp at hlt
  | coe r => exact ⟨r, rfl⟩
  | top => simp at hlt

/-- The result of a reduction over all axes has a single index. -/
instance subsingleton_scalar_idx : Subsingleton S_.Idx := ⟨fun a b => funext fun d => d.elim0⟩

/-- If the precondition holds, every entry of every float argument is a real number. -/
theorem finite_of_pre (a0 : FVec Ideal Cert.Pre_finite_inputs.S40000x32x4 .f32) (a1 : IVec Cert.Pre_finite_inputs.S40000 32)
    (a2 : FVec Ideal Cert.Pre_finite_inputs.S64x4 .f32) (a3 a4 a5 : FVec Ideal Cert.Pre_finite_inputs.S64 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun i => ?_⟩
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)
  · exact real_of_abs_lt_inf _ (Host.reduce_andi_all _ _ _ _ _ h4 i)
  · exact real_of_abs_lt_inf _ (Host.reduce_andi_all _ _ _ _ _ h5 i)

/-- A one-bit word is 0 or 1. -/
theorem bit_zero_or_one (b : BitVec 1) : b = 0#1 ∨ b = 1#1 := by
  revert b; decide

/-- The validity mask takes the values 0 and 1 only. -/
theorem maskOf_zero_or_one (n : (⟨1, ![40000]⟩ : Shape).Idx → BitVec 32) (j : Fin 1280000) :
    Cert.VoxelNorm.maskOf n j = 0 ∨ Cert.VoxelNorm.maskOf n j = 1 := by
  unfold Cert.VoxelNorm.maskOf
  rcases bit_zero_or_one (IntOp.cmpi .slt (BitVec.ofNat 32 (j.val % 32))
      (n (ix1 (⟨j.val / 32, by have := j.isLt; omega⟩ : Fin 40000)))) with hb | hb
  · left
    rw [hb]
    change (((0#1 : BitVec 1).toNat : ℝ) : EReal) = 0
    simp
  · right
    rw [hb]
    change (((1#1 : BitVec 1).toNat : ℝ) : EReal) = 1
    simp

end Cert.Finite

end
-- ==== Proof.Claims.lean ====
/-
  The five claims, from the kernel's run with its result named.

  The three frames are the runs with the result dropped.  The idealization rewrote nothing.  For the algebraic claim:
  the idealized kernel ends with its result at the folded arrangement of the six arguments, the reference with its
  result at the centred arrangement of arguments that agree; under the precondition every float argument is finite and
  the validity mask is 0 or 1, and then the two arrangements are equal entry by entry.
-/
import proofs.«165832_j45784351375623_2_alg».proof.Defs
import proofs.«165832_j45784351375623_2_alg».proof.Proof.Gen.Kernel.Frame
import proofs.«165832_j45784351375623_2_alg».proof.Proof.Gen.KernelIdeal.Frame
import proofs.«165832_j45784351375623_2_alg».proof.Proof.Gen.ReferenceIdeal.Read
import proofs.«165832_j45784351375623_2_alg».proof.Proof.Gen.Pre_finite_inputs
import proofs.«165832_j45784351375623_2_alg».proof.Proof.KernelValue
import proofs.«165832_j45784351375623_2_alg».proof.Proof.RefValue
import proofs.«165832_j45784351375623_2_alg».proof.Proof.Algebra
import proofs.«165832_j45784351375623_2_alg».proof.Proof.Finite

set_option maxRecDepth 16384

noncomputable section

namespace Cert.Proof.Claims

open Idealize.ShloMosaic Idealize.ShloMosaic.TcCoe Idealize.SL.Sem Cert.VoxelNorm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run with its result at the folded arrangement: what the algebraic claim needs of the kernel. -/
def KernelRuns : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v34) = Cert.KernelIdeal.Result.value m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

/-- The two idealized programs, from memories agreeing on the arguments, end with equal results. -/
theorem algebraic (hrun : KernelRuns) : Cert.algebraic_KernelIdeal_ReferenceIdeal := by
  intro m ρ m' ρ' hpre hagree
  refine ⟨fun c => Cert.KernelIdeal.Result.value m c, hrun m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v51_eq, Cert.ReferenceIdeal.RefValue.result_eq, e0, e1, e2, e3, e4, e5]
  obtain ⟨f0, f2, f3, f4, f5⟩ := Cert.Finite.finite_of_pre _ _ _ _ _ _ (hpre c)
  funext i
  exact (outK_eq_outR _ _ _ _ _ _ _ (fun j k => f0 _) (fun o k => f2 _) (fun o => f3 _) (fun o => f4 _) (fun o => f5 _)
    (fun j => Cert.Finite.maskOf_zero_or_one _ j) _ _).symm

end Cert.Proof.Claims

end
-- ==== Proof.lean ====
/-
  Voxel features — a linear map of every point, batch normalisation over the valid points of all voxels, a rectifier and
  the mean over each voxel's valid points — computed by two tiled passes with the statistics folded into one affine map
  per channel, against the same computation written with centred deviations.

  `Cert.Claim`: the word-level kernel, its idealization and the idealized reference each run to the end leaving their
  arguments unchanged; the idealization rewrote nothing; and at the ideal instance, where a float is an extended real and
  every operation exact, the idealized kernel and the reference end with equal results from memories that agree on the
  arguments, every float argument being finite.

  The kernel side: the run names the result buffer's last contents (KernelRun); the pooling pass leaves there `pooled` of
  the arrays it finds (PoolValue, over BlockBody); those arrays are the laid-out arguments and the scale and shift rows
  (HostStages); the rows are built from the three sums the statistics pass leaves (StatsValue); so the result is the
  folded arrangement `outK` of the arguments (KernelValue).  The reference side: its result is the centred arrangement
  `outR` (RefValue).  The two arrangements agree on finite inputs with a 0/1 mask (Algebra), which the precondition
  gives (Finite).  Spec states both arrangements.
-/
import proofs.«165832_j45784351375623_2_alg».proof.Defs
import proofs.«165832_j45784351375623_2_alg».proof.Proof.Gen.Kernel
import proofs.«165832_j45784351375623_2_alg».proof.Proof.Gen.KernelIdeal
import proofs.«165832_j45784351375623_2_alg».proof.Proof.Gen.ReferenceIdeal
import proofs.«165832_j45784351375623_2_alg».proof.Proof.Gen.Pre_finite_inputs
import proofs.«165832_j45784351375623_2_alg».proof.Proof.KernelRun
import proofs.«165832_j45784351375623_2_alg».proof.Proof.KernelValue
import proofs.«165832_j45784351375623_2_alg».proof.Proof.StatsValue
import proofs.«165832_j45784351375623_2_alg».proof.Proof.Claims
import Idealize.ShloMosaic.Adequacy
import Idealize.ShloMosaic.Init

noncomputable section

namespace Cert.Proof

open Idealize.ShloMosaic Idealize.ShloMosaic.TcCoe Idealize.SL.Sem

/-- The idealized kernel's run with its result at the folded arrangement of the six arguments. -/
theorem kernel_runs : Claims.KernelRuns := fun m ρ =>
  (θ_run Cert.KernelIdeal.defs _ _).mono
    (fun r h c => ⟨(h c).1.trans (Cert.KernelIdeal.Result.result_eq m ρ c
        (Cert.KernelIdeal.Stats.stats_sumH (Cert.KernelIdeal.Gen.V1 m ρ) c)
        (Cert.KernelIdeal.Stats.stats_sumSq (Cert.KernelIdeal.Gen.V1 m ρ) c)
        (Cert.KernelIdeal.Stats.stats_sumM (Cert.KernelIdeal.Gen.V1 m ρ) c)), (h c).2⟩)
    (Cert.KernelIdeal.RunValue.run_named m ρ)

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic kernel_runs⟩

end Cert.Proof

end
